-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x47 : Shape := ⟨2, ![64, 47]⟩
abbrev S47 : Shape := ⟨1, ![47]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x47 : S_.BroadcastsInDim S64x47 (![] : Fin 0 → Fin S64x47.rank)
  reducesTo_S64x47_S_d0_1 : S64x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg5 : FVec F S47 .f32) (main_v13 : IVec S_ 1) (main_v16 : IVec S64x47 1) : IVec S_ 1 :=
  let main_c_5 : IVec S_ 1 := constantI S_ 1 1#1
  let main_v17 : IVec S_ 1 := (fun x v => Host.reduce IntOp.andi x v reducesTo_S64x47_S_d0_1 h_S_) main_v16 main_c_5
  let main_v18 : IVec S_ 1 := andi main_v13 main_v17
  let main_v19 : FVec F S47 .f32 := Host.absf main_arg5
  let main_cst_6 : FVec F S_ .f32 := constant S_ .f32 0x7F800000#32
  let main_v20 : FVec F S47 .f32 := broadcastInDim S47 ![] bcast_S_S47 main_cst_6
  let main_v21 : IVec S47 1 := cmpf .olt main_v19 main_v20
  let main_c_7 : IVec S_ 1 := constantI S_ 1 1#1
  let main_v22 : IVec S_ 1 := (fun x v => Host.reduce IntOp.andi x v reducesTo_S47_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x47 .f32) (main_arg5 : FVec F S47 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x47 .f32 := Host.absf main_arg4
  let main_cst_4 : FVec F S_ .f32 := constant S_ .f32 0x7F800000#32
  let main_v15 : FVec F S64x47 .f32 := broadcastInDim S64x47 ![] bcast_S_S64x47 main_cst_4
  let main_v16 : IVec S64x47 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x47 : Shape := ⟨2, ![64, 47]⟩
abbrev S47 : Shape := ⟨1, ![47]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S5000x128 : Shape := ⟨2, ![5000, 128]⟩
abbrev S5000x64 : Shape := ⟨2, ![5000, 64]⟩
abbrev S100000x1 : Shape := ⟨2, ![100000, 1]⟩
abbrev S1600000x64 : Shape := ⟨2, ![1600000, 64]⟩
abbrev S1x64 : Shape := ⟨2, ![1, 64]⟩
abbrev S100000x47 : Shape := ⟨2, ![100000, 47]⟩
abbrev S5000x47 : Shape := ⟨2, ![5000, 47]⟩
abbrev S1600000x47 : Shape := ⟨2, ![1600000, 47]⟩
abbrev S1x47 : Shape := ⟨2, ![1, 47]⟩
abbrev S5000 : Shape := ⟨1, ![5000]⟩
abbrev S5000x1 : Shape := ⟨2, ![5000, 1]⟩

abbrev nBuf : Space → Nat
  | .hbm => 90
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x47, .f32⟩
  | .hbm, ⟨5, _⟩ => ⟨S47, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S100000, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S_, .f32⟩
  | .hbm, ⟨21, _⟩ => ⟨S1600000, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x64, .f32⟩
  | .hbm, ⟨26, _⟩ => ⟨S100000x1, .f32⟩
  | .hbm, ⟨27, _⟩ => ⟨S100000x64, .f32⟩
  | .hbm, ⟨28, _⟩ => ⟨S100000x64, .f32⟩
  | .hbm, ⟨29, _⟩ => ⟨S_, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S100000x64, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S100000x1, .f32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S1x64, .f32⟩
  | .hbm, ⟨57, _⟩ => ⟨S100000x47, .f32⟩
  | .hbm, ⟨58, _⟩ => ⟨S100000x1, .f32⟩
  | .hbm, ⟨59, _⟩ => ⟨S100000x47, .f32⟩
  | .hbm, ⟨60, _⟩ => ⟨S100000x47, .f32⟩
  | .hbm, ⟨61, _⟩ => ⟨S_, .f32⟩
  | .hbm, ⟨62, _⟩ => ⟨S100000x47, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x47, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S100000x47, .f32⟩
  | .hbm, ⟨81, _⟩ => ⟨S100000x1, .f32⟩
  | .hbm, ⟨82, _⟩ => ⟨S100000x47, .f32⟩
  | .hbm, ⟨83, _⟩ => ⟨S100000x47, .f32⟩
  | .hbm, ⟨84, _⟩ => ⟨S100000x1, .f32⟩
  | .hbm, ⟨85, _⟩ => ⟨S100000x47, .f32⟩
  | .hbm, ⟨86, _⟩ => ⟨S100000x47, .f32⟩
  | .hbm, ⟨87, _⟩ => ⟨S100000x47, .f32⟩
  | .hbm, ⟨88, _⟩ => ⟨S1x47, .f32⟩
  | .hbm, ⟨89, _⟩ => ⟨S100000x47, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x47, .f32⟩
  | .local _ .vmem, ⟨9, _⟩ => ⟨S5000x47, .f32⟩
  | .local _ .vmem, ⟨10, _⟩ => ⟨S5000x47, .f32⟩
  | .local _ .vmem, ⟨11, _⟩ => ⟨S5000x47, .f32⟩
  | .local _ .vmem, ⟨12, _⟩ => ⟨S5000x47, .f32⟩
  | .local _ .vmem, ⟨13, _⟩ => ⟨S1x47, .f32⟩
  | .local _ .vmem, ⟨14, _⟩ => ⟨S5000x47, .f32⟩
  | .local _ .vmem, ⟨15, _⟩ => ⟨S5000x47, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_10 : Ref sig .tc := ⟨.hbm, 72, rfl⟩
abbrev main_v54 : Ref sig .tc := ⟨.hbm, 73, rfl⟩
abbrev main_v55 : Ref sig .tc := ⟨.hbm, 74, rfl⟩
abbrev main_c_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x47 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x47 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x47 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x47 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x47 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x47_S64x47_0_0 : ∀ a, (![0, 0] : Fin 2 → Nat) a + S64x47.size a ≤ S64x47.size a
  h_S64x47 : 0 < S64x47.numel
  inb_S5000x47_S5000x47_0_0 : ∀ a, (![0, 0] : Fin 2 → Nat) a + S5000x47.size a ≤ S5000x47.size a
  h_S5000x47 : 0 < S5000x47.numel
  bcast_S100000x1_S100000x47_0_1 : S100000x1.BroadcastsInDim S100000x47 (![0, 1] : Fin 2 → Fin S100000x47.rank)
  bcast_S_S100000x47 : S_.BroadcastsInDim S100000x47 (![] : Fin 0 → Fin S100000x47.rank)
  shapeCasts_S47_S1x47 : S47.ShapeCasts S1x47
  shapeCasts_S5000x47_S5000x47 : S5000x47.ShapeCasts S5000x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  reduces_S5000x47_S5000 : S5000x47.Reduces [1] S5000
  shapeCasts_S5000_S5000x1 : S5000.ShapeCasts S5000x1
  broadcasts_S5000x1_S5000x47 : S5000x1.Broadcasts S5000x47
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x47_S5000x47_1_0_0_1_n_n_wf : DotDims.WF S5000x64 S64x47 S5000x47 [1] [0] [0] [1] [] []
  gather_S100000x47_S1600000x1_S1600000x47_1_0_n_n_0_1_147_wf : GatherDims.WF S100000x47 S1600000x1 S1600000x47 [1] [0] [] [0] [] 1 ![1, 47]
  scatter_S100000x47_S1600000x1_S1600000x47_1_0_0_1_wf : ScatterDims.WF S100000x47 S1600000x1 S1600000x47 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x47.size a ≤ S64x47.size a
  hwx1_2 : ∀ i : grid1.Coords, EltTy.bits .f32 = 32 ∨ (Rect.block (s := S64x47) S64x47.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x47.size a ≤ S100000x47.size a
  hwx1_3 : ∀ i : grid1.Coords, EltTy.bits .f32 = 32 ∨ (Rect.block (s := S100000x47) S5000x47.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x47.size a ≤ S100000x47.size a
  hwx2_0 : ∀ i : grid2.Coords, EltTy.bits .f32 = 32 ∨ (Rect.block (s := S100000x47) S5000x47.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x47.size a ≤ S1x47.size a
  hwx2_1 : ∀ i : grid2.Coords, EltTy.bits .f32 = 32 ∨ (Rect.block (s := S1x47) S1x47.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x47.size a ≤ S100000x47.size a
  hwx2_2 : ∀ i : grid2.Coords, EltTy.bits .f32 = 32 ∨ (Rect.block (s := S100000x47) S5000x47.size (cc2_transform_2 i) (hinb2_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x47_S5000x47_1_0_0_1_n_n : DotDims S5000x64 S64x47 S5000x47 where
  lhsContracting := [1]
  rhsContracting := [0]
  lhsNonContracting := [0]
  rhsNonContracting := [1]
  lhsBatch := []
  rhsBatch := []
  wf := dot_S5000x64_S64x47_S5000x47_1_0_0_1_n_n_wf
def gather_S100000x47_S1600000x1_S1600000x47_1_0_n_n_0_1_147 : GatherDims S100000x47 S1600000x1 S1600000x47 where
  offsetDims := [1]
  collapsedSliceDims := [0]
  operandBatchingDims := []
  startIndicesBatchingDims := []
  startIndexMap := [0]
  indexVectorDim := 1
  sliceSizes := ![1, 47]
  wf := gather_S100000x47_S1600000x1_S1600000x47_1_0_n_n_0_1_147_wf
def scatter_S100000x47_S1600000x1_S1600000x47_1_0_0_1 : ScatterDims S100000x47 S1600000x1 S1600000x47 where
  updateWindowDims := [1]
  insertedWindowDims := [0]
  scatterDimsToOperandDims := [0]
  indexVectorDim := 1
  wf := scatter_S100000x47_S1600000x1_S1600000x47_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x47.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x47.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v67) S5000x47.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S1x47.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S5000x47.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x47 : Shape := ⟨2, ![64, 47]⟩
abbrev S47 : Shape := ⟨1, ![47]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x47 : Shape := ⟨2, ![100000, 47]⟩
abbrev S1600000x47 : Shape := ⟨2, ![1600000, 47]⟩
abbrev S1x47 : Shape := ⟨2, ![1, 47]⟩

abbrev nBuf : Space → Nat
  | .hbm => 162
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x47, .f32⟩
  | 5 => ⟨S47, .f32⟩
  | 6 => ⟨S1x1600000, .i32⟩
  | 7 => ⟨S1600000, .i32⟩
  | 8 => ⟨S1x1600000, .i32⟩
  | 9 => ⟨S1600000, .i32⟩
  | 10 => ⟨S100000x64, .f32⟩
  | 11 => ⟨S_, .f32⟩
  | 12 => ⟨S100000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S_, .f32⟩
  | 22 => ⟨S1600000, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S1600000x1, .f32⟩
  | 54 => ⟨S1600000x64, .f32⟩
  | 55 => ⟨S1600000x64, .f32⟩
  | 56 => ⟨S_, .f32⟩
  | 57 => ⟨S100000x64, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S100000x64, .f32⟩
  | 67 => ⟨S_, .f32⟩
  | 68 => ⟨S100000, .f32⟩
  | 69 => ⟨S100000, .f32⟩
  | 70 => ⟨S100000x1, .f32⟩
  | 71 => ⟨S100000x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S100000x47, .f32⟩
  | 81 => ⟨S_, .f32⟩
  | 82 => ⟨S100000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S_, .f32⟩
  | 92 => ⟨S1600000, .f32⟩
  | 93 => ⟨S100000, .f32⟩
  | 94 => ⟨S100000, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000, .f32⟩
  | 113 => ⟨S1600000, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x47, .f32⟩
  | 123 => ⟨S1600000x1, .f32⟩
  | 124 => ⟨S1600000x47, .f32⟩
  | 125 => ⟨S1600000x47, .f32⟩
  | 126 => ⟨S_, .f32⟩
  | 127 => ⟨S100000x47, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S100000x47, .f32⟩
  | 9 => ⟨S_, .f32⟩
  | 10 => ⟨S100000, .f32⟩
  | 11 => ⟨S100000, .f32⟩
  | 12 => ⟨S100000x1, .f32⟩
  | 13 => ⟨S100000x47, .f32⟩
  | 14 => ⟨S100000x47, .f32⟩
  | 15 => ⟨S100000x47, .f32⟩
  | 16 => ⟨S1x47, .f32⟩
  | 17 => ⟨S100000x47, .f32⟩
  | 18 => ⟨S100000x47, .f32⟩
  | 19 => ⟨S_, .f32⟩
  | 20 => ⟨S100000, .f32⟩
  | 21 => ⟨S_, .f32⟩
  | 22 => ⟨S100000, .f32⟩
  | 23 => ⟨S100000, .f32⟩
  | 24 => ⟨S100000x1, .f32⟩
  | 25 => ⟨S100000x47, .f32⟩
  | 26 => ⟨S100000x47, .f32⟩
  | 27 => ⟨S100000x47, .f32⟩
  | 28 => ⟨S_, .f32⟩
  | 29 => ⟨S100000, .f32⟩
  | 30 => ⟨S100000x1, .f32⟩
  | 31 => ⟨S100000x1, .f32⟩
  | 32 => ⟨S100000x47, .f32⟩
  | 33 => ⟨S100000x47, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_c_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_call0_cst : Ref sig .tc := ⟨.hbm, 77, rfl⟩
abbrev main_call0_v0 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_c_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_15 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_c_17 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_c_19 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_20 : Ref sig .tc := ⟨.hbm, 114, rfl⟩
abbrev main_v84 : Ref sig .tc := ⟨.hbm, 115, rfl⟩
abbrev main_v85 : Ref sig .tc := ⟨.hbm, 116, rfl⟩
abbrev main_c_21 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_22 : Ref sig .tc := ⟨.hbm, 126, rfl⟩
abbrev main_v94 : Ref sig .tc := ⟨.hbm, 127, rfl⟩
abbrev main_c_23 : Ref sig .tc := ⟨.hbm, 128, rfl⟩
abbrev main_v95 : Ref sig .tc := ⟨.hbm, 129, rfl⟩
abbrev main_v96 : Ref sig .tc := ⟨.hbm, 130, rfl⟩
abbrev main_c_24 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_25 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_call1_cst : Ref sig .tc := ⟨.hbm, 147, rfl⟩
abbrev main_call1_v0 : Ref sig .tc := ⟨.hbm, 148, rfl⟩
abbrev main_call1_cst_0 : Ref sig .tc := ⟨.hbm, 149, rfl⟩
abbrev main_call1_v1 : Ref sig .tc := ⟨.hbm, 150, rfl⟩
abbrev main_call1_v2 : Ref sig .tc := ⟨.hbm, 151, rfl⟩
abbrev main_call1_v3 : Ref sig .tc := ⟨.hbm, 152, rfl⟩
abbrev main_call1_v4 : Ref sig .tc := ⟨.hbm, 153, rfl⟩
abbrev main_call1_v5 : Ref sig .tc := ⟨.hbm, 154, rfl⟩
abbrev main_call1_v6 : Ref sig .tc := ⟨.hbm, 155, rfl⟩
abbrev main_call1_cst_1 : Ref sig .tc := ⟨.hbm, 156, rfl⟩
abbrev main_call1_v7 : Ref sig .tc := ⟨.hbm, 157, rfl⟩
abbrev main_call1_v8 : Ref sig .tc := ⟨.hbm, 158, rfl⟩
abbrev main_call1_v9 : Ref sig .tc := ⟨.hbm, 159, rfl⟩
abbrev main_call1_v10 : Ref sig .tc := ⟨.hbm, 160, rfl⟩
abbrev main_v111 : Ref sig .tc := ⟨.hbm, 161, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x47_0_1 : S1600000x1.BroadcastsInDim S1600000x47 (![0, 1] : Fin 2 → Fin S1600000x47.rank)
  bcast_S_S100000x47 : S_.BroadcastsInDim S100000x47 (![] : Fin 0 → Fin S100000x47.rank)
  bcast_S100000x1_S100000x47_0_1 : S100000x1.BroadcastsInDim S100000x47 (![0, 1] : Fin 2 → Fin S100000x47.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  reducesTo_S100000x47_S100000_d1 : S100000x47.ReducesTo [1] S100000
  h_S_ : 0 < S_.numel
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x47_S100000x47_1_0_0_1_n_n_wf : DotDims.WF S100000x64 S64x47 S100000x47 [1] [0] [0] [1] [] []
  gather_S100000x47_S1600000x1_S1600000x47_1_0_n_n_0_1_147_wf : GatherDims.WF S100000x47 S1600000x1 S1600000x47 [1] [0] [] [0] [] 1 ![1, 47]
  scatter_S100000x47_S1600000x1_S1600000x47_1_0_0_1_wf : ScatterDims.WF S100000x47 S1600000x1 S1600000x47 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x47_S100000x47_1_0_0_1_n_n : DotDims S100000x64 S64x47 S100000x47 where
  lhsContracting := [1]
  rhsContracting := [0]
  lhsNonContracting := [0]
  rhsNonContracting := [1]
  lhsBatch := []
  rhsBatch := []
  wf := dot_S100000x64_S64x47_S100000x47_1_0_0_1_n_n_wf
def gather_S100000x47_S1600000x1_S1600000x47_1_0_n_n_0_1_147 : GatherDims S100000x47 S1600000x1 S1600000x47 where
  offsetDims := [1]
  collapsedSliceDims := [0]
  operandBatchingDims := []
  startIndicesBatchingDims := []
  startIndexMap := [0]
  indexVectorDim := 1
  sliceSizes := ![1, 47]
  wf := gather_S100000x47_S1600000x1_S1600000x47_1_0_n_n_0_1_147_wf
def scatter_S100000x47_S1600000x1_S1600000x47_1_0_0_1 : ScatterDims S100000x47 S1600000x1 S1600000x47 where
  updateWindowDims := [1]
  insertedWindowDims := [0]
  scatterDimsToOperandDims := [0]
  indexVectorDim := 1
  wf := scatter_S100000x47_S1600000x1_S1600000x47_1_0_0_1_wf

class Facts : Prop extends Facts₀ where

variable [Facts]
-- ==== Proof.KRun.lean ====
/-
  The idealized kernel's run, with its result named.  @main is three row-blocked regions among stretches of host
  operations; every weakly fair execution terminates without a fault, and at the end every buffer that lives across
  regions holds the last boundary's contents (the fold `W6` through @main: each host stretch applied to the contents
  before it, each region's arrays replaced by what its write-backs leave).  Read at the result buffer and at the six
  argument buffers, that is the statement below: the result is `W6` at the result's reference, the arguments are as launched.
-/
import proofs.«107560_j37632503447782_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_main : θ_run defs (onTc (τ := τ) (main (F := F))) ⟨m, fun _ => 0, ρ⟩ (fun r => ∀ c : Dev nD,
      r.2.mem ((c.tc : Thread nD τ).loc main_v69) = W6 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v69 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.LibGcnAgg.lean ====
/-
  One symmetric-normalised neighbour aggregation on the extended reals, over a graph of `N` nodes and `E` edges
  given as two columns of start-index words (sources, destinations) and `F` features per node.

  With `deg n = 1 + #{edges landing on n}` and `dinv = deg^(-1/2)`, the aggregate of a feature array `X` at node `n` is
      ∑_{e → n} X(src e) · dinv(src e) · dinv(n)   +   X(n) / deg(n).
  Two arrangements compute it.  One scales the rows of `X` by `dinv` first, sums the scaled source rows over the
  edges landing on `n`, scales the sum by `dinv(n)` and adds `X(n) · dinv(n)²` (`aggRows`).  The other multiplies every
  edge's source row by the edge weight `dinv(src e) · dinv(dst e)`, sums those, and adds `X(n) · (1 / deg(n))`
  (`aggEdges`).  They agree on every extended-real `X`: `deg(n)` is a real number `≥ 1` whatever the index words are
  (one plus a count), so `dinv(n)` is a non-negative real, and multiplication by a non-negative real distributes over
  any sum of extended reals; an edge that lands on `n` has destination word `n`, so the clamped read `dinv(dst e)` is
  `dinv(n)`; and `deg^(-1/2) · deg^(-1/2) = 1 / deg` for a positive real.  Edges whose destination word is out of range
  land nowhere in both arrangements; source words are clamped into range by both in the same way.

  The first part reads the dimension numbers of the row gather, the vector gather and the row scatter at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.GcnAgg

open Idealize.ShloMosaic Idealize.ShloMosaic.ValueIdx

/-! ## The dimension numbers read at an index -/

/-- The row a start-index word names once clamped into `[0, N − 1]` (the word read as a signed integer). -/
def clampRow (N : ℕ) (hN : 0 < N) {w : ℕ} (x : BitVec w) : Fin N := ⟨min x.toInt.toNat (N - 1), by omega⟩

/-- A word that, read signed, is the in-range row `n` clamps to `n`. -/
theorem clampRow_of_toInt {N : ℕ} (hN : 0 < N) {w : ℕ} (x : BitVec w) (n : Fin N) (h : x.toInt = (n.val : ℤ)) :
    clampRow N hN x = n := by
  apply Fin.ext
  show min x.toInt.toNat (N - 1) = n.val
  have := n.isLt
  rw [h, Int.toNat_natCast]
  omega

/-- Gathering whole rows of an `[N, F]` array at a column of `E` start indices: entry `(e, f)` of the result reads
    the operand at row `clamp (idx e)`, column `f`. -/
theorem gatherRows_operandIdx {N E F w : ℕ} (hN : 0 < N) (d : GatherDims ⟨2, ![N, F]⟩ ⟨2, ![E, 1]⟩ ⟨2, ![E, F]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, F]) (idx : IVec ⟨2, ![E, 1]⟩ w) (e : Fin E) (f : Fin F) :
    d.operandIdx (ix2 e f) idx = ix2 (clampRow N hN (idx (ix2 e (0 : Fin 1)))) f := by
  obtain ⟨od, cd, ob, sb, sm, iv, ss, wf⟩ := d
  dsimp only at h1 h2 h3 h4 h5 h6 h7
  subst h1 h2 h3 h4 h5 h6 h7
  generalize hD : (⟨[1], [0], [], [], [0], 1, ![1, F], wf⟩ : GatherDims ⟨2, ![N, F]⟩ ⟨2, ![E, 1]⟩ ⟨2, ![E, F]⟩) = d
  have hob : d.operandBatchingDims = [] := by subst hD; rfl
  have hcd : d.collapsedSliceDims = [0] := by subst hD; rfl
  have hsm : d.startIndexMap = [0] := by subst hD; rfl
  funext a
  apply Fin.ext
  show d.start (ix2 e f) idx a + d.batchCoord (ix2 e f) a + d.offCoord (ix2 e f) a = _
  rw [GatherDims.batchCoord_eq_zero _ _ _ (by rw [hob]; exact List.not_mem_nil), Nat.add_zero]
  match a with
  | ⟨0, h0⟩ =>
    rw [GatherDims.offCoord_eq_zero _ _ _ (fun h => ((GatherDims.mem_sKept _ _).mp h).1 (by rw [hcd]; exact List.mem_singleton.mpr rfl)), Nat.add_zero]
    have hmem : (⟨0, h0⟩ : Fin 2) ∈ d.startIndexMap := by rw [hsm]; exact List.mem_singleton.mpr rfl
    unfold GatherDims.start
    rw [dif_pos hmem]
    have hsi : d.siIdx (ix2 e f) ⟨d.startIndexMap.idxOf (⟨0, h0⟩ : Fin 2), List.idxOf_lt_length_iff.2 hmem⟩ = ix2 e (0 : Fin 1) := by
      subst hD
      funext b; refine Fin.ext ?_
      match b with
      | ⟨0, _⟩ => rfl
      | ⟨1, _⟩ => rfl
    rw [hsi]
    subst hD
    rfl
  | ⟨1, h1⟩ =>
    have e10 : (⟨1, h1⟩ : Fin 2) ≠ 0 := fun h => Nat.one_ne_zero (congrArg Fin.val h)
    have hnm : (⟨1, h1⟩ : Fin 2) ∉ d.startIndexMap := by rw [hsm]; exact fun h => e10 (List.mem_singleton.mp h)
    have hst : d.start (ix2 e f) idx ⟨1, h1⟩ = 0 := by unfold GatherDims.start; rw [dif_neg hnm]
    rw [hst, Nat.zero_add]
    have hk : (⟨1, h1⟩ : Fin 2) ∈ d.sKept :=
      (GatherDims.mem_sKept _ _).mpr ⟨by rw [hcd]; exact fun h => e10 (List.mem_singleton.mp h), by rw [hob]; exact List.not_mem_nil⟩
    unfold GatherDims.offCoord
    rw [dif_pos hk]
    subst hD
    rfl

/-- Gathering entries of an `[N]` vector at a column of `E` start indices: entry `e` reads the operand at
    `clamp (idx e)`. -/
theorem gatherVec_operandIdx {N E w : ℕ} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (idx : IVec ⟨2, ![E, 1]⟩ w) (e : Fin E) :
    d.operandIdx (ix1 e) idx = ix1 (clampRow N hN (idx (ix2 e (0 : Fin 1)))) := by
  obtain ⟨od, cd, ob, sb, sm, iv, ss, wf⟩ := d
  dsimp only at h1 h2 h3 h4 h5 h6 h7
  subst h1 h2 h3 h4 h5 h6 h7
  generalize hD : (⟨[], [0], [], [], [0], 1, ![1], wf⟩ : GatherDims ⟨1, ![N]⟩ ⟨2, ![E, 1]⟩ ⟨1, ![E]⟩) = d
  have hob : d.operandBatchingDims = [] := by subst hD; rfl
  have hcd : d.collapsedSliceDims = [0] := by subst hD; rfl
  have hsm : d.startIndexMap = [0] := by subst hD; rfl
  funext a
  apply Fin.ext
  show d.start (ix1 e) idx a + d.batchCoord (ix1 e) a + d.offCoord (ix1 e) a = _
  rw [GatherDims.batchCoord_eq_zero _ _ _ (by rw [hob]; exact List.not_mem_nil), Nat.add_zero]
  match a with
  | ⟨0, h0⟩ =>
    rw [GatherDims.offCoord_eq_zero _ _ _ (fun h => ((GatherDims.mem_sKept _ _).mp h).1 (by rw [hcd]; exact List.mem_singleton.mpr rfl)), Nat.add_zero]
    have hmem : (⟨0, h0⟩ : Fin 1) ∈ d.startIndexMap := by rw [hsm]; exact List.mem_singleton.mpr rfl
    unfold GatherDims.start
    rw [dif_pos hmem]
    have hsi : d.siIdx (ix1 e) ⟨d.startIndexMap.idxOf (⟨0, h0⟩ : Fin 1), List.idxOf_lt_length_iff.2 hmem⟩ = ix2 e (0 : Fin 1) := by
      subst hD
      funext b; refine Fin.ext ?_
      match b with
      | ⟨0, _⟩ => rfl
      | ⟨1, _⟩ => rfl
    rw [hsi]
    subst hD
    rfl

/-- Scattering rows of an `[E, F]` update array into an `[N, F]` operand at a column of `E` start indices: if update
    entry `(e, f')` lands on operand entry `i`, the start word of edge `e`, read signed, is `i`'s row and `f'` is `i`'s
    column. -/
theorem scatterRows_resultIdx {N E F w : ℕ} (d : ScatterDims ⟨2, ![N, F]⟩ ⟨2, ![E, 1]⟩ ⟨2, ![E, F]⟩)
    (h1 : d.updateWindowDims = [1]) (h2 : d.insertedWindowDims = [0]) (h3 : d.scatterDimsToOperandDims = [0])
    (h4 : d.indexVectorDim = 1) (idx : IVec ⟨2, ![E, 1]⟩ w) (e : Fin E) (f' : Fin F)
    (i : (⟨2, ![N, F]⟩ : Shape).Idx) (h : d.resultIdx? (ix2 e f') idx = some i) :
    (idx (ix2 e (0 : Fin 1))).toInt = ((i 0).val : ℤ) ∧ f'.val = (i 1).val := by
  obtain ⟨uw, iw, sd, iv, wf⟩ := d
  dsimp only at h1 h2 h3 h4
  subst h1 h2 h3 h4
  generalize hD : (⟨[1], [0], [0], 1, wf⟩ : ScatterDims ⟨2, ![N, F]⟩ ⟨2, ![E, 1]⟩ ⟨2, ![E, F]⟩) = d at h
  have hsd : d.scatterDimsToOperandDims = [0] := by subst hD; rfl
  have hiw : d.insertedWindowDims = [0] := by subst hD; rfl
  have e10 : (1 : Fin 2) ≠ 0 := fun h => Nat.one_ne_zero (congrArg Fin.val h)
  have hs0 : d.start (ix2 e f') idx (0 : Fin 2) = (idx (ix2 e (0 : Fin 1))).toInt := by
    have hmem : (0 : Fin 2) ∈ d.scatterDimsToOperandDims := by rw [hsd]; exact List.mem_singleton.mpr rfl
    unfold ScatterDims.start
    rw [dif_pos hmem]
    have hsi : d.siIdx (ix2 e f') ⟨d.scatterDimsToOperandDims.idxOf (0 : Fin 2), List.idxOf_lt_length_iff.2 hmem⟩ = ix2 e (0 : Fin 1) := by
      subst hD
      funext b; refine Fin.ext ?_
      match b with
      | ⟨0, _⟩ => rfl
      | ⟨1, _⟩ => rfl
    rw [hsi]
  have hs1 : d.start (ix2 e f') idx (1 : Fin 2) = 0 := by
    unfold ScatterDims.start
    rw [dif_neg (by rw [hsd]; exact fun h => e10 (List.mem_singleton.mp h))]
  have hk0 : (0 : Fin 2) ∉ d.sKept := by
    show (0 : Fin 2) ∉ Shape.kept _ d.insertedWindowDims
    rw [hiw]; simp [Shape.kept]
  have hk1 : (1 : Fin 2) ∈ d.sKept := by
    show (1 : Fin 2) ∈ Shape.kept _ d.insertedWindowDims
    rw [hiw]; simp [Shape.kept, List.mem_filter, List.mem_finRange]
  have hw0 : d.window (ix2 e f') (0 : Fin 2) = 0 := by
    unfold ScatterDims.window
    rw [dif_neg hk0]
  have hw1 : d.window (ix2 e f') (1 : Fin 2) = f'.val := by
    unfold ScatterDims.window
    rw [dif_pos hk1]
    subst hD
    rfl
  unfold ScatterDims.resultIdx? at h
  split at h
  · rename_i hc
    have hi := Option.some.inj h
    have g0 := congrArg (fun g : (⟨2, ![N, F]⟩ : Shape).Idx => (g 0).val) hi
    have g1 := congrArg (fun g : (⟨2, ![N, F]⟩ : Shape).Idx => (g 1).val) hi
    dsimp only at g0 g1
    have c0 := hc 0
    have c1 := hc 1
    rw [hs0, hw0] at g0 c0
    rw [hs1, hw1] at g1 c1
    constructor <;> omega
  · exact absurd h (by simp)

/-! ## Sums of extended reals -/

/-- A non-negative real factor goes into any finite sum of extended reals. -/
theorem sum_mul_real {ι : Type} (s : Finset ι) (a : ι → EReal) (r : ℝ) (hr : 0 ≤ r) :
    (∑ j ∈ s, a j) * (r : EReal) = ∑ j ∈ s, a j * (r : EReal) := by
  classical
  induction s using Finset.induction_on with
  | empty => simp
  | insert x s hx ih =>
    rw [Finset.sum_insert hx, Finset.sum_insert hx,
      EReal.right_distrib_of_nonneg_of_ne_top (EReal.coe_nonneg.mpr hr) (EReal.coe_ne_top r), ih]

/-- A sum of ones over a finite set is a non-negative real. -/
theorem sum_one_real {ι : Type} (s : Finset ι) (c : ι → EReal) (hc : ∀ j, c j = 1) :
    ∃ r : ℝ, 0 ≤ r ∧ ∑ j ∈ s, c j = (r : EReal) := by
  classical
  induction s using Finset.induction_on with
  | empty => exact ⟨0, le_refl _, by simp⟩
  | insert x s hx ih =>
    obtain ⟨r, hr, e⟩ := ih
    refine ⟨1 + r, by linarith, ?_⟩
    rw [Finset.sum_insert hx, e, hc x, EReal.coe_add, EReal.coe_one]

/-- `deg^(-1/2) · deg^(-1/2) = 1 / deg` for a positive real `deg`, as the extended-real operations compute them. -/
theorem rsqrt_mul_self {r : ℝ} (hr : 0 < r) :
    Ideal.rsqrt (r : EReal) * Ideal.rsqrt (r : EReal) = Ideal.div 1 (r : EReal) := by
  rw [Ideal.rsqrt_coe, if_neg (not_lt.mpr hr.le), if_neg hr.ne', Ideal.div_coe hr.ne', one_mul, ← EReal.coe_mul]
  congr 1
  rw [← mul_inv, Real.mul_self_sqrt hr.le, one_div]

/-- `deg^(-1/2)` of a positive real is a non-negative real. -/
theorem rsqrt_real {r : ℝ} (hr : 0 < r) : ∃ q : ℝ, 0 ≤ q ∧ Ideal.rsqrt (r : EReal) = (q : EReal) :=
  ⟨(Real.sqrt r)⁻¹, inv_nonneg.mpr (Real.sqrt_nonneg r), by rw [Ideal.rsqrt_coe, if_neg (not_lt.mpr hr.le), if_neg hr.ne']⟩

/-! ## Layout operations read at an index -/

/-- A vector broadcast along the rows of an `[A, B]` array (through a column `[A, 1]`) reads, at `(a, b)`, the
    vector at `a`. -/
theorem bcastRows_apply {α : Type} {A B : ℕ} (h1 : (⟨1, ![A]⟩ : Shape).BroadcastsInDim ⟨2, ![A, 1]⟩ ![0])
    (h2 : (⟨2, ![A, 1]⟩ : Shape).BroadcastsInDim ⟨2, ![A, B]⟩ ![0, 1]) (v : (⟨1, ![A]⟩ : Shape).Idx → α) (a : Fin A) (b : Fin B) :
    broadcastInDim ⟨2, ![A, B]⟩ ![0, 1] h2 (broadcastInDim ⟨2, ![A, 1]⟩ ![0] h1 v) (ix2 a b) = v (ix1 a) := by
  rw [broadcastInDim_apply ![0, 1] h2 _ (ix2 a b) (ix2 a (0 : Fin 1)) (fun ax => by
        match ax with
        | ⟨0, _⟩ =>
          show a.val = if A = 1 then 0 else a.val
          split
          · have := a.isLt; omega
          · rfl
        | ⟨1, _⟩ => rfl),
    broadcastInDim_apply ![0] h1 v (ix2 a (0 : Fin 1)) (ix1 a) (fun ax => by
        match ax with
        | ⟨0, _⟩ =>
          show a.val = if A = 1 then 0 else a.val
          split
          · have := a.isLt; omega
          · rfl)]

/-- A scalar broadcast to any shape reads the scalar everywhere. -/
theorem bcastScalar_apply {α : Type} {T : Shape} (h0 : (⟨0, ![]⟩ : Shape).BroadcastsInDim T ![])
    (v : (⟨0, ![]⟩ : Shape).Idx → α) (i : T.Idx) : broadcastInDim T ![] h0 v i = v ix0 :=
  broadcastInDim_apply ![] h0 v i ix0 (fun a => a.elim0)

/-- The single-precision word of one denotes `1`. -/
theorem ofBits_one : Ideal.ofBits .f32 0x3F800000#32 = 1 := by
  simp [Ideal.ofBits, Ideal.ieee, -EReal.coe_mul]; norm_num

/-! ## The two arrangements -/

section Agg

variable {N E F : ℕ}

/-- One plus the number of edges landing on each node: ones scattered, with addition, onto ones. -/
def degOf (sc1 : ScatterDims ⟨1, ![N]⟩ ⟨2, ![E, 1]⟩ ⟨1, ![E]⟩)
    (hn0 : (⟨0, ![]⟩ : Shape).BroadcastsInDim ⟨1, ![N]⟩ ![]) (he0 : (⟨0, ![]⟩ : Shape).BroadcastsInDim ⟨1, ![E]⟩ ![])
    (dstI : IVec ⟨2, ![E, 1]⟩ 32) : FVec Ideal ⟨1, ![N]⟩ .f32 :=
  Host.scatterAdd sc1 (broadcastInDim ⟨1, ![N]⟩ ![] hn0 (constant (F := Ideal) ⟨0, ![]⟩ .f32 0x3F800000#32)) dstI (broadcastInDim ⟨1, ![E]⟩ ![] he0 (constant (F := Ideal) ⟨0, ![]⟩ .f32 0x3F800000#32))

/-- Every degree is a real number at least one. -/
theorem degOf_real (sc1 : ScatterDims ⟨1, ![N]⟩ ⟨2, ![E, 1]⟩ ⟨1, ![E]⟩)
    (hn0 : (⟨0, ![]⟩ : Shape).BroadcastsInDim ⟨1, ![N]⟩ ![]) (he0 : (⟨0, ![]⟩ : Shape).BroadcastsInDim ⟨1, ![E]⟩ ![])
    (dstI : IVec ⟨2, ![E, 1]⟩ 32) (n : Fin N) :
    ∃ r : ℝ, 1 ≤ r ∧ degOf sc1 hn0 he0 dstI (ix1 n) = (r : EReal) := by
  obtain ⟨r, hr, e⟩ := sum_one_real (Finset.univ.filter (fun j : (⟨1, ![E]⟩ : Shape).Idx => sc1.resultIdx? j dstI = some (ix1 n)))
    (broadcastInDim ⟨1, ![E]⟩ ![] he0 (constant (F := Ideal) ⟨0, ![]⟩ .f32 0x3F800000#32)) (fun j => by
      rw [bcastScalar_apply]
      exact ofBits_one)
  refine ⟨1 + r, by linarith, ?_⟩
  show (broadcastInDim ⟨1, ![N]⟩ ![] hn0 (constant (F := Ideal) ⟨0, ![]⟩ .f32 0x3F800000#32)) (ix1 n) + ∑ j ∈ Finset.univ.filter (fun j : (⟨1, ![E]⟩ : Shape).Idx => sc1.resultIdx? j dstI = some (ix1 n)), (broadcastInDim ⟨1, ![E]⟩ ![] he0 (constant (F := Ideal) ⟨0, ![]⟩ .f32 0x3F800000#32)) j = _
  rw [e, bcastScalar_apply, EReal.coe_add, EReal.coe_one]
  exact congrArg (· + (r : EReal)) ofBits_one

/-- Rows scaled first: scale the rows of `xw` by `dinv`, sum the scaled source rows over the edges landing on each
    node, scale by `dinv` again, add `xw` scaled by `dinv2`. -/
def aggRows (sc : ScatterDims ⟨2, ![N, F]⟩ ⟨2, ![E, 1]⟩ ⟨2, ![E, F]⟩) (g : GatherDims ⟨2, ![N, F]⟩ ⟨2, ![E, 1]⟩ ⟨2, ![E, F]⟩)
    (hb1 : (⟨1, ![N]⟩ : Shape).BroadcastsInDim ⟨2, ![N, 1]⟩ ![0]) (hb2 : (⟨2, ![N, 1]⟩ : Shape).BroadcastsInDim ⟨2, ![N, F]⟩ ![0, 1])
    (hb0 : (⟨0, ![]⟩ : Shape).BroadcastsInDim ⟨2, ![N, F]⟩ ![])
    (srcI dstI : IVec ⟨2, ![E, 1]⟩ 32) (dinv dinv2 : FVec Ideal ⟨1, ![N]⟩ .f32) (xw : FVec Ideal ⟨2, ![N, F]⟩ .f32) :
    FVec Ideal ⟨2, ![N, F]⟩ .f32 :=
  addf (mulf (Host.scatterAdd sc (broadcastInDim ⟨2, ![N, F]⟩ ![] hb0 (constant (F := Ideal) ⟨0, ![]⟩ .f32 0x00000000#32)) dstI (Host.gather g (mulf xw (broadcastInDim ⟨2, ![N, F]⟩ ![0, 1] hb2 (broadcastInDim ⟨2, ![N, 1]⟩ ![0] hb1 dinv))) srcI)) (broadcastInDim ⟨2, ![N, F]⟩ ![0, 1] hb2 (broadcastInDim ⟨2, ![N, 1]⟩ ![0] hb1 dinv)))
    (mulf xw (broadcastInDim ⟨2, ![N, F]⟩ ![0, 1] hb2 (broadcastInDim ⟨2, ![N, 1]⟩ ![0] hb1 dinv2)))

/-- Edges weighted: multiply every edge's source row by `dinv(src) · dinv(dst)`, sum over the edges landing on each
    node, add `xw` scaled by `1 / deg`. -/
def aggEdges (sc : ScatterDims ⟨2, ![N, F]⟩ ⟨2, ![E, 1]⟩ ⟨2, ![E, F]⟩) (g : GatherDims ⟨2, ![N, F]⟩ ⟨2, ![E, 1]⟩ ⟨2, ![E, F]⟩)
    (g1 : GatherDims ⟨1, ![N]⟩ ⟨2, ![E, 1]⟩ ⟨1, ![E]⟩)
    (hb1 : (⟨1, ![N]⟩ : Shape).BroadcastsInDim ⟨2, ![N, 1]⟩ ![0]) (hb2 : (⟨2, ![N, 1]⟩ : Shape).BroadcastsInDim ⟨2, ![N, F]⟩ ![0, 1])
    (hb0 : (⟨0, ![]⟩ : Shape).BroadcastsInDim ⟨2, ![N, F]⟩ ![])
    (he1 : (⟨1, ![E]⟩ : Shape).BroadcastsInDim ⟨2, ![E, 1]⟩ ![0]) (he2 : (⟨2, ![E, 1]⟩ : Shape).BroadcastsInDim ⟨2, ![E, F]⟩ ![0, 1])
    (hn0 : (⟨0, ![]⟩ : Shape).BroadcastsInDim ⟨1, ![N]⟩ ![])
    (srcI dstI : IVec ⟨2, ![E, 1]⟩ 32) (deg dinv : FVec Ideal ⟨1, ![N]⟩ .f32) (xw : FVec Ideal ⟨2, ![N, F]⟩ .f32) :
    FVec Ideal ⟨2, ![N, F]⟩ .f32 :=
  addf (Host.scatterAdd sc (broadcastInDim ⟨2, ![N, F]⟩ ![] hb0 (constant (F := Ideal) ⟨0, ![]⟩ .f32 0x00000000#32)) dstI
      (mulf (Host.gather g xw srcI) (broadcastInDim ⟨2, ![E, F]⟩ ![0, 1] he2 (broadcastInDim ⟨2, ![E, 1]⟩ ![0] he1 (mulf (Host.gather g1 dinv srcI) (Host.gather g1 dinv dstI))))))
    (mulf xw (broadcastInDim ⟨2, ![N, F]⟩ ![0, 1] hb2 (broadcastInDim ⟨2, ![N, 1]⟩ ![0] hb1 (Host.divf (broadcastInDim ⟨1, ![N]⟩ ![] hn0 (constant (F := Ideal) ⟨0, ![]⟩ .f32 0x3F800000#32)) deg))))

/-- THE TWO ARRANGEMENTS AGREE, on every array `xw` of extended reals and all index words, when `deg` is the degree
    array, `dinv` its inverse square root and `dinv2` the square of that. -/
theorem aggRows_eq_aggEdges (hN : 0 < N)
    (sc : ScatterDims ⟨2, ![N, F]⟩ ⟨2, ![E, 1]⟩ ⟨2, ![E, F]⟩)
    (hs1 : sc.updateWindowDims = [1]) (hs2 : sc.insertedWindowDims = [0]) (hs3 : sc.scatterDimsToOperandDims = [0])
    (hs4 : sc.indexVectorDim = 1)
    (g : GatherDims ⟨2, ![N, F]⟩ ⟨2, ![E, 1]⟩ ⟨2, ![E, F]⟩)
    (hg1 : g.offsetDims = [1]) (hg2 : g.collapsedSliceDims = [0]) (hg3 : g.operandBatchingDims = [])
    (hg4 : g.startIndicesBatchingDims = []) (hg5 : g.startIndexMap = [0]) (hg6 : g.indexVectorDim = 1)
    (hg7 : g.sliceSizes = ![1, F])
    (g1 : GatherDims ⟨1, ![N]⟩ ⟨2, ![E, 1]⟩ ⟨1, ![E]⟩)
    (hv1 : g1.offsetDims = []) (hv2 : g1.collapsedSliceDims = [0]) (hv3 : g1.operandBatchingDims = [])
    (hv4 : g1.startIndicesBatchingDims = []) (hv5 : g1.startIndexMap = [0]) (hv6 : g1.indexVectorDim = 1)
    (hv7 : g1.sliceSizes = ![1])
    (sc1 : ScatterDims ⟨1, ![N]⟩ ⟨2, ![E, 1]⟩ ⟨1, ![E]⟩)
    (hb1 : (⟨1, ![N]⟩ : Shape).BroadcastsInDim ⟨2, ![N, 1]⟩ ![0]) (hb2 : (⟨2, ![N, 1]⟩ : Shape).BroadcastsInDim ⟨2, ![N, F]⟩ ![0, 1])
    (hb0 : (⟨0, ![]⟩ : Shape).BroadcastsInDim ⟨2, ![N, F]⟩ ![])
    (he1 : (⟨1, ![E]⟩ : Shape).BroadcastsInDim ⟨2, ![E, 1]⟩ ![0]) (he2 : (⟨2, ![E, 1]⟩ : Shape).BroadcastsInDim ⟨2, ![E, F]⟩ ![0, 1])
    (hn0 : (⟨0, ![]⟩ : Shape).BroadcastsInDim ⟨1, ![N]⟩ ![]) (he0 : (⟨0, ![]⟩ : Shape).BroadcastsInDim ⟨1, ![E]⟩ ![])
    (srcI dstI : IVec ⟨2, ![E, 1]⟩ 32) (xw : FVec Ideal ⟨2, ![N, F]⟩ .f32) :
    aggRows sc g hb1 hb2 hb0 srcI dstI (Host.rsqrt (degOf sc1 hn0 he0 dstI))
        (mulf (Host.rsqrt (degOf sc1 hn0 he0 dstI)) (Host.rsqrt (degOf sc1 hn0 he0 dstI))) xw
      = aggEdges sc g g1 hb1 hb2 hb0 he1 he2 hn0 srcI dstI (degOf sc1 hn0 he0 dstI) (Host.rsqrt (degOf sc1 hn0 he0 dstI)) xw := by
  generalize hD : degOf sc1 hn0 he0 dstI = D
  have hDr : ∀ n : Fin N, ∃ r : ℝ, 1 ≤ r ∧ D (ix1 n) = (r : EReal) := fun n => hD ▸ degOf_real sc1 hn0 he0 dstI n
  generalize hI : (Host.rsqrt D : FVec Ideal ⟨1, ![N]⟩ .f32) = dinv
  have hIv : ∀ n : Fin N, dinv (ix1 n) = Ideal.rsqrt (D (ix1 n)) := fun n => by rw [← hI]; rfl
  funext i
  obtain ⟨n, f, rfl⟩ : ∃ (n : Fin N) (f : Fin F), i = ix2 n f := ⟨i 0, i 1, eq_ix2 i⟩
  obtain ⟨r, hr1, hr⟩ := hDr n
  have hr0 : 0 < r := by linarith
  obtain ⟨q, hq0, hq⟩ := rsqrt_real hr0
  have hdn : dinv (ix1 n) = (q : EReal) := by rw [hIv, hr, hq]
  show ((broadcastInDim ⟨2, ![N, F]⟩ ![] hb0 (constant (F := Ideal) ⟨0, ![]⟩ .f32 0x00000000#32)) (ix2 n f) + ∑ j ∈ Finset.univ.filter (fun j : (⟨2, ![E, F]⟩ : Shape).Idx => sc.resultIdx? j dstI = some (ix2 n f)), (xw (g.operandIdx j srcI) * (broadcastInDim ⟨2, ![N, F]⟩ ![0, 1] hb2 (broadcastInDim ⟨2, ![N, 1]⟩ ![0] hb1 dinv)) (g.operandIdx j srcI))) * (broadcastInDim ⟨2, ![N, F]⟩ ![0, 1] hb2 (broadcastInDim ⟨2, ![N, 1]⟩ ![0] hb1 dinv)) (ix2 n f)
        + xw (ix2 n f) * (broadcastInDim ⟨2, ![N, F]⟩ ![0, 1] hb2 (broadcastInDim ⟨2, ![N, 1]⟩ ![0] hb1 (mulf dinv dinv))) (ix2 n f)
      = ((broadcastInDim ⟨2, ![N, F]⟩ ![] hb0 (constant (F := Ideal) ⟨0, ![]⟩ .f32 0x00000000#32)) (ix2 n f) + ∑ j ∈ Finset.univ.filter (fun j : (⟨2, ![E, F]⟩ : Shape).Idx => sc.resultIdx? j dstI = some (ix2 n f)), (xw (g.operandIdx j srcI) * (broadcastInDim ⟨2, ![E, F]⟩ ![0, 1] he2 (broadcastInDim ⟨2, ![E, 1]⟩ ![0] he1 (mulf (Host.gather g1 dinv srcI) (Host.gather g1 dinv dstI)))) j))
        + xw (ix2 n f) * (broadcastInDim ⟨2, ![N, F]⟩ ![0, 1] hb2 (broadcastInDim ⟨2, ![N, 1]⟩ ![0] hb1 (Host.divf (broadcastInDim ⟨1, ![N]⟩ ![] hn0 (constant (F := Ideal) ⟨0, ![]⟩ .f32 0x3F800000#32)) D))) (ix2 n f)
  rw [bcastRows_apply hb1 hb2 dinv n f, bcastRows_apply hb1 hb2 (mulf dinv dinv) n f,
    bcastRows_apply hb1 hb2 (Host.divf (broadcastInDim ⟨1, ![N]⟩ ![] hn0 (constant (F := Ideal) ⟨0, ![]⟩ .f32 0x3F800000#32)) D) n f, bcastScalar_apply hb0, hdn]
  have hz : (constant (F := Ideal) ⟨0, ![]⟩ .f32 0x00000000#32) ix0 = 0 := Ideal.ofBits_zero_f32
  rw [hz, zero_add, zero_add, sum_mul_real _ _ q hq0]
  have hself : (mulf dinv dinv : FVec Ideal ⟨1, ![N]⟩ .f32) (ix1 n) = (Host.divf (broadcastInDim ⟨1, ![N]⟩ ![] hn0 (constant (F := Ideal) ⟨0, ![]⟩ .f32 0x3F800000#32)) D : FVec Ideal ⟨1, ![N]⟩ .f32) (ix1 n) := by
    show dinv (ix1 n) * dinv (ix1 n) = Ideal.div ((broadcastInDim ⟨1, ![N]⟩ ![] hn0 (constant (F := Ideal) ⟨0, ![]⟩ .f32 0x3F800000#32)) (ix1 n)) (D (ix1 n))
    rw [bcastScalar_apply hn0, hIv, hr]
    exact (rsqrt_mul_self hr0).trans (congrArg (fun z => Ideal.div z (r : EReal)) ofBits_one.symm)
  rw [hself]
  refine congrArg (· + _) (Finset.sum_congr rfl fun j hj => ?_)
  obtain ⟨e, f', rfl⟩ : ∃ (e : Fin E) (f' : Fin F), j = ix2 e f' := ⟨j 0, j 1, eq_ix2 j⟩
  have hland := scatterRows_resultIdx sc hs1 hs2 hs3 hs4 dstI e f' (ix2 n f) (Finset.mem_filter.mp hj).2
  have hdst : clampRow N hN (dstI (ix2 e (0 : Fin 1))) = n := clampRow_of_toInt hN _ n hland.1
  rw [gatherRows_operandIdx hN g hg1 hg2 hg3 hg4 hg5 hg6 hg7 srcI e f', bcastRows_apply hb1 hb2 dinv _ f',
    bcastRows_apply he1 he2 _ e f']
  show xw _ * dinv _ * (q : EReal) = xw _ * (dinv (g1.operandIdx (ix1 e) srcI) * dinv (g1.operandIdx (ix1 e) dstI))
  rw [gatherVec_operandIdx hN g1 hv1 hv2 hv3 hv4 hv5 hv6 hv7 srcI e, gatherVec_operandIdx hN g1 hv1 hv2 hv3 hv4 hv5 hv6 hv7 dstI e,
    hdst, hdn, mul_assoc]

end Agg

end Cert.GcnAgg

end
-- ==== Proof.KHost.lean ====
/-
  The host stretches of the idealized kernel's @main, each read as a function of the buffer contents it starts from.

  @main is: a first stretch that cuts the edge list into its source and destination rows and computes the degree
  array (ones scattered with addition onto ones), its inverse square root and the square of that; the first region
  (a matrix product); a second stretch that aggregates the product over the graph, rows scaled first
  (`Cert.GcnAgg.aggRows`), and lays the first bias out as one row; the second region; a third stretch that aggregates
  again and lays the second bias out as one row; the third region.  A stretch writes only its own result buffers, so
  the earlier results and the arguments pass through it unchanged.
-/
import proofs.«107560_j37632503447782_2_alg».proof.Proof.Gen.KernelIdeal.Frame
import proofs.«107560_j37632503447782_2_alg».proof.Proof.LibGcnAgg
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo
open Cert.GcnAgg

/-- The source row of the edge list as a vector of words. -/
def srcRow (e : IVec S2x1600000 32) : IVec S1600000 32 :=
  shapeCast S1600000 (extractStridedSlice S1x1600000 ![0, 0] e slices_S2x1600000_S1x1600000_0_0) shapeCasts_S1x1600000_S1600000
/-- The destination row of the edge list as a vector of words. -/
def dstRow (e : IVec S2x1600000 32) : IVec S1600000 32 :=
  shapeCast S1600000 (extractStridedSlice S1x1600000 ![1, 0] e slices_S2x1600000_S1x1600000_1_0) shapeCasts_S1x1600000_S1600000
/-- A vector of index words with the negative ones shifted up by the node count, laid out as a column. -/
def normCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)
/-- The degree array of a destination column. -/
def degCol (dstI : IVec S1600000x1 32) : FVec Ideal S100000 .f32 :=
  degOf scatter_S100000_S1600000x1_S1600000_n_0_0_1 bcast_S_S100000 bcast_S_S1600000 dstI
/-- The aggregation of a 64-column array, rows scaled first. -/
def agg64 (srcI dstI : IVec S1600000x1 32) (dinv dinv2 : FVec Ideal S100000 .f32) (xw : FVec Ideal S100000x64 .f32) :
    FVec Ideal S100000x64 .f32 :=
  aggRows scatter_S100000x64_S1600000x1_S1600000x64_1_0_0_1 gather_S100000x64_S1600000x1_S1600000x64_1_0_n_n_0_1_164
    bcast_S100000_S100000x1_0 bcast_S100000x1_S100000x64_0_1 bcast_S_S100000x64 srcI dstI dinv dinv2 xw
/-- The aggregation of a 47-column array, rows scaled first. -/
def agg47 (srcI dstI : IVec S1600000x1 32) (dinv dinv2 : FVec Ideal S100000 .f32) (xw : FVec Ideal S100000x47 .f32) :
    FVec Ideal S100000x47 .f32 :=
  aggRows scatter_S100000x47_S1600000x1_S1600000x47_1_0_0_1 gather_S100000x47_S1600000x1_S1600000x47_1_0_n_n_0_1_147
    bcast_S100000_S100000x1_0 bcast_S100000x1_S100000x47_0_1 bcast_S_S100000x47 srcI dstI dinv dinv2 xw

variable (Wp : Valuation τ sig (Elt Ideal))

/-! ## The first stretch -/

theorem s0_v1 : StableHlo.after (hostOps0 (F := Ideal)) Wp (Proc.devRef .tc main_v1) = srcRow (Wp (Proc.devRef .tc main_arg1)) := by
  after_results_simp
  rfl
theorem s0_v3 : StableHlo.after (hostOps0 (F := Ideal)) Wp (Proc.devRef .tc main_v3) = dstRow (Wp (Proc.devRef .tc main_arg1)) := by
  after_results_simp
  rfl
theorem s0_v13 : StableHlo.after (hostOps0 (F := Ideal)) Wp (Proc.devRef .tc main_v13) = Host.rsqrt (degCol (normCol (dstRow (Wp (Proc.devRef .tc main_arg1))))) := by
  after_results_simp
  rfl
theorem s0_v14 : StableHlo.after (hostOps0 (F := Ideal)) Wp (Proc.devRef .tc main_v14)
    = mulf (Host.rsqrt (degCol (normCol (dstRow (Wp (Proc.devRef .tc main_arg1)))))) (Host.rsqrt (degCol (normCol (dstRow (Wp (Proc.devRef .tc main_arg1)))))) := by
  after_results_simp
  rfl
theorem s0_keep_arg0 : StableHlo.after (hostOps0 (F := Ideal)) Wp (Proc.devRef .tc main_arg0) = Wp (Proc.devRef .tc main_arg0) := by
  after_results_simp
theorem s0_keep_arg2 : StableHlo.after (hostOps0 (F := Ideal)) Wp (Proc.devRef .tc main_arg2) = Wp (Proc.devRef .tc main_arg2) := by
  after_results_simp
theorem s0_keep_arg3 : StableHlo.after (hostOps0 (F := Ideal)) Wp (Proc.devRef .tc main_arg3) = Wp (Proc.devRef .tc main_arg3) := by
  after_results_simp
theorem s0_keep_arg4 : StableHlo.after (hostOps0 (F := Ideal)) Wp (Proc.devRef .tc main_arg4) = Wp (Proc.devRef .tc main_arg4) := by
  after_results_simp
theorem s0_keep_arg5 : StableHlo.after (hostOps0 (F := Ideal)) Wp (Proc.devRef .tc main_arg5) = Wp (Proc.devRef .tc main_arg5) := by
  after_results_simp

/-! ## The second stretch -/

theorem s1_v40 : StableHlo.after (hostOps1 (F := Ideal)) Wp (Proc.devRef .tc main_v40)
    = agg64 (normCol (Wp (Proc.devRef .tc main_v1))) (normCol (Wp (Proc.devRef .tc main_v3))) (Wp (Proc.devRef .tc main_v13)) (Wp (Proc.devRef .tc main_v14)) (Wp (Proc.devRef .tc main_v15)) := by
  after_results_simp
  rfl
theorem s1_v41 : StableHlo.after (hostOps1 (F := Ideal)) Wp (Proc.devRef .tc main_v41) = shapeCast S1x64 (Wp (Proc.devRef .tc main_arg3)) shapeCasts_S64_S1x64 := by
  after_results_simp
  rfl
theorem s1_keep_v1 : StableHlo.after (hostOps1 (F := Ideal)) Wp (Proc.devRef .tc main_v1) = Wp (Proc.devRef .tc main_v1) := by
  after_results_simp
theorem s1_keep_v3 : StableHlo.after (hostOps1 (F := Ideal)) Wp (Proc.devRef .tc main_v3) = Wp (Proc.devRef .tc main_v3) := by
  after_results_simp
theorem s1_keep_v13 : StableHlo.after (hostOps1 (F := Ideal)) Wp (Proc.devRef .tc main_v13) = Wp (Proc.devRef .tc main_v13) := by
  after_results_simp
theorem s1_keep_v14 : StableHlo.after (hostOps1 (F := Ideal)) Wp (Proc.devRef .tc main_v14) = Wp (Proc.devRef .tc main_v14) := by
  after_results_simp
theorem s1_keep_arg4 : StableHlo.after (hostOps1 (F := Ideal)) Wp (Proc.devRef .tc main_arg4) = Wp (Proc.devRef .tc main_arg4) := by
  after_results_simp
theorem s1_keep_arg5 : StableHlo.after (hostOps1 (F := Ideal)) Wp (Proc.devRef .tc main_arg5) = Wp (Proc.devRef .tc main_arg5) := by
  after_results_simp

/-! ## The third stretch -/

theorem s2_v67 : StableHlo.after (hostOps2 (F := Ideal)) Wp (Proc.devRef .tc main_v67)
    = agg47 (normCol (Wp (Proc.devRef .tc main_v1))) (normCol (Wp (Proc.devRef .tc main_v3))) (Wp (Proc.devRef .tc main_v13)) (Wp (Proc.devRef .tc main_v14)) (Wp (Proc.devRef .tc main_v42)) := by
  after_results_simp
  rfl
theorem s2_v68 : StableHlo.after (hostOps2 (F := Ideal)) Wp (Proc.devRef .tc main_v68) = shapeCast S1x47 (Wp (Proc.devRef .tc main_arg5)) shapeCasts_S47_S1x47 := by
  after_results_simp
  rfl

end Cert.KernelIdeal.HostValue

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibLogSoftmax.lean ====
/-
  Row-wise log-softmax on the extended reals, over rank-2 arrays of any extents.

  addRow X b adds the one-row array b to every row of X.  lsm Z is the row-wise log-softmax with the row maximum
  subtracted first: with m_p the largest entry of row p,
    lsm Z (p, q) = (Z(p, q) - m_p) - log (∑ k, exp (Z(p, k) - m_p)).
  The row maximum is the fold of max over the row from the value of a fixed word; that value is never evaluated: the
  vector unit's reduction starts its fold from it, and the host takes the maximum of it with its own fold from it, which
  is the fold again because the starting value is below every fold that starts from it.  A one-axis sum reads, at row p,
  the sum of the row; the host's sum starts from the zero word, whose value is 0.  The per-row statistics live in a
  column [M, 1] (a vector [M] cast or broadcast to a column) that is broadcast along the rows.
-/
import Idealize.ShloMosaic.PureOps.Ideal.Laws
import Idealize.ShloMosaic.Lib.ValueIdx
import Idealize.ShloMosaic.Lib.ValueLayout
import Idealize.ShloMosaic.Lib.Pipeline.Value
import proofs.«107560_j37632503447782_2_alg».proof.Proof.LibDense
import proofs.«107560_j37632503447782_2_alg».proof.Proof.LibRowBlocks

noncomputable section

open scoped BigOperators

namespace Cert.LogSoftmax

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The largest entry of row p (the fold of max from the word 0xFF800000, which is never evaluated). -/
def rowMax {M N : ℕ} (Z : Mat M N) (p : Fin M) : EReal :=
  (Finset.univ : Finset (Fin N)).fold max (Ideal.ofBits .f32 0xFF800000#32) (fun k => Z (ix2 p k))

/-- Row-wise log-softmax with the row maximum subtracted first. -/
def lsm {M N : ℕ} (Z : Mat M N) : Mat M N := fun i =>
  (Z i - rowMax Z (c0 i)) - Ideal.log (∑ k : Fin N, Ideal.exp (Z (ix2 (c0 i) k) - rowMax Z (c0 i)))

theorem lsm_apply {M N : ℕ} (Z : Mat M N) (p : Fin M) (q : Fin N) :
    lsm Z (ix2 p q)
      = (Z (ix2 p q) - rowMax Z p) - Ideal.log (∑ k : Fin N, Ideal.exp (Z (ix2 p k) - rowMax Z p)) := rfl

/-- A row of the log-softmax depends on the same row of the argument only. -/
theorem lsm_rows {M M' N : ℕ} (Z : Mat M N) (Z' : Mat M' N) (p : Fin M) (p' : Fin M')
    (h : ∀ k, Z' (ix2 p' k) = Z (ix2 p k)) (q : Fin N) : lsm Z' (ix2 p' q) = lsm Z (ix2 p q) := by
  simp only [lsm_apply, rowMax, h]

theorem addRow_rows {M M' N : ℕ} (X : Mat M N) (X' : Mat M' N) (b : Mat 1 N) (p : Fin M) (p' : Fin M')
    (h : ∀ k, X' (ix2 p' k) = X (ix2 p k)) (q : Fin N) : addRow X' b (ix2 p' q) = addRow X b (ix2 p q) := by
  simp only [addRow_apply, h]

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- A row index with the column coordinate inserted is the pair. -/
theorem lift_row {M N : ℕ} (hr : (⟨2, ![M, N]⟩ : Shape).Reduces [1] ⟨1, ![M]⟩) (p : Fin M) (k : Fin N) :
    hr.lift (ix1 p) k = ix2 p k :=
  funext fun ax => Fin.ext (by
    match ax with
    | ⟨0, _⟩ => rfl
    | ⟨1, _⟩ => rfl)

/-- A vector [M] broadcast to a column [M, 1] (the host's form) reads, at (p, u), the vector at p. -/
theorem bcastCol_apply {α : Type} {M : ℕ} (x : (⟨1, ![M]⟩ : Shape).Idx → α)
    (h1 : (⟨1, ![M]⟩ : Shape).BroadcastsInDim ⟨2, ![M, 1]⟩ ![0]) (p : Fin M) (u : Fin 1) :
    broadcastInDim ⟨2, ![M, 1]⟩ ![0] h1 x (ix2 p u) = x (ix1 p) :=
  broadcastInDim_apply ![0] h1 x (ix2 p u) (ix1 p) (fun a => by
    match a with
    | ⟨0, _⟩ =>
      show p.val = if M = 1 then 0 else p.val
      split
      · have := p.isLt; omega
      · rfl)

/-- A column [M, 1] broadcast along the rows (the host's form) reads, at (p, q), the column at row p. -/
theorem bcastRows_apply {α : Type} {M N : ℕ} (x : (⟨2, ![M, 1]⟩ : Shape).Idx → α)
    (h2 : (⟨2, ![M, 1]⟩ : Shape).BroadcastsInDim ⟨2, ![M, N]⟩ ![0, 1]) (p : Fin M) (q : Fin N) :
    broadcastInDim ⟨2, ![M, N]⟩ ![0, 1] h2 x (ix2 p q) = x (ix2 p (0 : Fin 1)) :=
  broadcastInDim_apply ![0, 1] h2 x (ix2 p q) (ix2 p (0 : Fin 1)) (fun a => by
    match a with
    | ⟨0, _⟩ =>
      show p.val = if M = 1 then 0 else p.val
      split
      · have := p.isLt; omega
      · rfl
    | ⟨1, _⟩ => rfl)

/-- The vector unit's row maximum, cast to a column and broadcast along the rows, reads the row's maximum. -/
theorem vecRowMax_apply {M N : ℕ} (Z : FVec Ideal ⟨2, ![M, N]⟩ .f32)
    (hr : (⟨2, ![M, N]⟩ : Shape).Reduces [1] ⟨1, ![M]⟩) (hφ : FKind.Formats .f32)
    (hmax : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, N]⟩)
    (p : Fin M) (q : Fin N) :
    broadcastTo ⟨2, ![M, N]⟩ (shapeCast ⟨2, ![M, 1]⟩
        (multiReduction .maximumf [1] ⟨1, ![M]⟩ Z 0xFF800000#32 hr hφ hmax) hc) hb (ix2 p q) = rowMax Z p := by
  refine (Cert.RowBlocks.broadcastTo_col_apply _ hb p q).trans ?_
  refine (Cert.RowBlocks.shapeCast_col_apply _ hc p (0 : Fin 1)).trans ?_
  refine (Ideal.multiReduction_maximumf_single Z 0xFF800000#32 hr hφ hmax (ix1 p)).trans ?_
  exact Finset.fold_congr fun k _ => congrArg Z (lift_row hr p k)

/-- The vector unit's form of the row-wise log-softmax. -/
theorem vecLsm {M N : ℕ} (Z : FVec Ideal ⟨2, ![M, N]⟩ .f32)
    (hr : (⟨2, ![M, N]⟩ : Shape).Reduces [1] ⟨1, ![M]⟩) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩) :
    subf (subf Z (broadcastTo ⟨2, ![M, N]⟩ (shapeCast ⟨2, ![M, 1]⟩
            (multiReduction .maximumf [1] ⟨1, ![M]⟩ Z 0xFF800000#32 hr hφ hmax) hc) hb))
         (broadcastTo ⟨2, ![M, N]⟩ (log (shapeCast ⟨2, ![M, 1]⟩
            (multiReduction .add [1] ⟨1, ![M]⟩
              (exp (subf Z (broadcastTo ⟨2, ![M, N]⟩ (shapeCast ⟨2, ![M, 1]⟩
                (multiReduction .maximumf [1] ⟨1, ![M]⟩ Z 0xFF800000#32 hr hφ hmax) hc) hb)))
              0x00000000#32 hr hφ hadd) hc)) hb)
      = lsm Z := by
  funext i
  obtain ⟨p, q, rfl⟩ : ∃ (p : Fin M) (q : Fin N), i = ix2 p q := ⟨i 0, i 1, eq_ix2 i⟩
  have hs : ∀ k : Fin N, subf Z (broadcastTo ⟨2, ![M, N]⟩ (shapeCast ⟨2, ![M, 1]⟩
      (multiReduction .maximumf [1] ⟨1, ![M]⟩ Z 0xFF800000#32 hr hφ hmax) hc) hb) (ix2 p k)
        = Z (ix2 p k) - rowMax Z p :=
    fun k => congrArg (fun t => Z (ix2 p k) - t) (vecRowMax_apply Z hr hφ hmax hc hb p k)
  have hl : broadcastTo ⟨2, ![M, N]⟩ (log (shapeCast ⟨2, ![M, 1]⟩
      (multiReduction .add [1] ⟨1, ![M]⟩
        (exp (subf Z (broadcastTo ⟨2, ![M, N]⟩ (shapeCast ⟨2, ![M, 1]⟩
          (multiReduction .maximumf [1] ⟨1, ![M]⟩ Z 0xFF800000#32 hr hφ hmax) hc) hb)))
        0x00000000#32 hr hφ hadd) hc)) hb (ix2 p q)
        = Ideal.log (∑ k : Fin N, Ideal.exp (Z (ix2 p k) - rowMax Z p)) := by
    refine (Cert.RowBlocks.broadcastTo_col_apply _ hb p q).trans ?_
    refine congrArg Ideal.log ((Cert.RowBlocks.shapeCast_col_apply _ hc p (0 : Fin 1)).trans ?_)
    refine (Ideal.multiReduction_add_single _ 0x00000000#32 hr hφ hadd (ix1 p)).trans ?_
    refine Finset.sum_congr rfl fun k _ => ?_
    rw [lift_row hr p k]
    exact congrArg Ideal.exp (hs k)
  exact (congrArg₂ (fun a b : EReal => a - b) (hs q) hl).trans (lsm_apply Z p q).symm

/-- The host's row maximum — the maximum of the starting value with the fold from it — is the row's maximum. -/
theorem hostRowMax_apply {M N : ℕ} (X : FVec Ideal ⟨2, ![M, N]⟩ .f32)
    (hrt : (⟨2, ![M, N]⟩ : Shape).ReducesTo [1] ⟨1, ![M]⟩) (hr : (⟨2, ![M, N]⟩ : Shape).Reduces [1] ⟨1, ![M]⟩)
    (hu : 0 < (⟨0, ![]⟩ : Shape).numel) (h0 : (⟨0, ![]⟩ : Shape).BroadcastsInDim ⟨1, ![M]⟩ ![]) (p : Fin M) :
    maximumf (broadcastInDim ⟨1, ![M]⟩ ![] h0 (constant (F := Ideal) ⟨0, ![]⟩ .f32 0xFF800000#32))
        (Host.reduce FloatOps.maximumf X (constant (F := Ideal) ⟨0, ![]⟩ .f32 0xFF800000#32) hrt hu) (ix1 p)
      = rowMax X p := by
  have hfold : Host.reduce FloatOps.maximumf X (constant (F := Ideal) ⟨0, ![]⟩ .f32 0xFF800000#32) hrt hu (ix1 p)
      = rowMax X p := by
    refine (Host.reduce_eq_fold_single FloatOps.maximumf X _ hrt hr hu (ix1 p)).trans ?_
    exact Finset.fold_congr fun k _ => congrArg X (lift_row hr p k)
  have hw : broadcastInDim ⟨1, ![M]⟩ ![] h0 (constant (F := Ideal) ⟨0, ![]⟩ .f32 0xFF800000#32) (ix1 p)
      = Ideal.ofBits .f32 0xFF800000#32 :=
    broadcastInDim_apply ![] h0 _ (ix1 p) ix0 (fun a => a.elim0)
  show max (broadcastInDim ⟨1, ![M]⟩ ![] h0 (constant (F := Ideal) ⟨0, ![]⟩ .f32 0xFF800000#32) (ix1 p))
      (Host.reduce FloatOps.maximumf X (constant (F := Ideal) ⟨0, ![]⟩ .f32 0xFF800000#32) hrt hu (ix1 p)) = _
  rw [hw, hfold]
  exact max_eq_right ((Finset.le_fold_max _).mpr (Or.inl le_rfl))

/-- The host's form of the row-wise log-softmax. -/
theorem hostLsm {M N : ℕ} (X : FVec Ideal ⟨2, ![M, N]⟩ .f32)
    (hrt : (⟨2, ![M, N]⟩ : Shape).ReducesTo [1] ⟨1, ![M]⟩) (hr : (⟨2, ![M, N]⟩ : Shape).Reduces [1] ⟨1, ![M]⟩)
    (hu : 0 < (⟨0, ![]⟩ : Shape).numel) (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1]) :
    subf
        (subf X (broadcastInDim ⟨2, ![M, N]⟩ ![0, 1] h2 (broadcastInDim ⟨2, ![M, 1]⟩ ![0] h1
          (maximumf (broadcastInDim ⟨1, ![M]⟩ ![] h0 (constant (F := Ideal) ⟨0, ![]⟩ .f32 0xFF800000#32))
            (Host.reduce FloatOps.maximumf X (constant (F := Ideal) ⟨0, ![]⟩ .f32 0xFF800000#32) hrt hu)))))
        (broadcastInDim ⟨2, ![M, N]⟩ ![0, 1] h2 (Host.log (broadcastInDim ⟨2, ![M, 1]⟩ ![0] h1
          (Host.reduceAdd
            (Host.exp (subf X (broadcastInDim ⟨2, ![M, N]⟩ ![0, 1] h2 (broadcastInDim ⟨2, ![M, 1]⟩ ![0] h1
              (maximumf (broadcastInDim ⟨1, ![M]⟩ ![] h0 (constant (F := Ideal) ⟨0, ![]⟩ .f32 0xFF800000#32))
                (Host.reduce FloatOps.maximumf X (constant (F := Ideal) ⟨0, ![]⟩ .f32 0xFF800000#32) hrt hu))))))
            (constant (F := Ideal) ⟨0, ![]⟩ .f32 0x00000000#32) hrt hu))))
      = lsm X := by
  funext i
  obtain ⟨p, q, rfl⟩ : ∃ (p : Fin M) (q : Fin N), i = ix2 p q := ⟨i 0, i 1, eq_ix2 i⟩
  have hs : ∀ k : Fin N, subf X (broadcastInDim ⟨2, ![M, N]⟩ ![0, 1] h2 (broadcastInDim ⟨2, ![M, 1]⟩ ![0] h1
      (maximumf (broadcastInDim ⟨1, ![M]⟩ ![] h0 (constant (F := Ideal) ⟨0, ![]⟩ .f32 0xFF800000#32))
        (Host.reduce FloatOps.maximumf X (constant (F := Ideal) ⟨0, ![]⟩ .f32 0xFF800000#32) hrt hu)))) (ix2 p k)
        = X (ix2 p k) - rowMax X p :=
    fun k => congrArg (fun t => X (ix2 p k) - t)
      ((bcastRows_apply _ h2 p k).trans ((bcastCol_apply _ h1 p (0 : Fin 1)).trans
        (hostRowMax_apply X hrt hr hu h0 p)))
  have hl : broadcastInDim ⟨2, ![M, N]⟩ ![0, 1] h2 (Host.log (broadcastInDim ⟨2, ![M, 1]⟩ ![0] h1
      (Host.reduceAdd
        (Host.exp (subf X (broadcastInDim ⟨2, ![M, N]⟩ ![0, 1] h2 (broadcastInDim ⟨2, ![M, 1]⟩ ![0] h1
          (maximumf (broadcastInDim ⟨1, ![M]⟩ ![] h0 (constant (F := Ideal) ⟨0, ![]⟩ .f32 0xFF800000#32))
            (Host.reduce FloatOps.maximumf X (constant (F := Ideal) ⟨0, ![]⟩ .f32 0xFF800000#32) hrt hu))))))
        (constant (F := Ideal) ⟨0, ![]⟩ .f32 0x00000000#32) hrt hu))) (ix2 p q)
        = Ideal.log (∑ k : Fin N, Ideal.exp (X (ix2 p k) - rowMax X p)) := by
    refine (bcastRows_apply _ h2 p q).trans ?_
    refine congrArg Ideal.log ((bcastCol_apply _ h1 p (0 : Fin 1)).trans ?_)
    refine (Ideal.hostReduceAdd_single hrt hr _ _ (ix1 p)).trans ?_
    show Ideal.ofBits .f32 0x00000000#32 + _ = _
    rw [Ideal.ofBits_zero_f32, zero_add]
    refine Finset.sum_congr rfl fun k _ => ?_
    rw [lift_row hr p k]
    exact congrArg Ideal.exp (hs k)
  exact (congrArg₂ (fun a b : EReal => a - b) (hs q) hl).trans (lsm_apply X p q).symm

end Cert.LogSoftmax

end
-- ==== Proof.KRegionMatmul.lean ====
/-
  The two matrix-product kernels, read as whole arrays.

  Each kernel walks a tall array of 100000 rows in 20 blocks of 5000 rows; the other operands are small arrays held whole.
  At block `t` the first kernel writes the product of rows `5000 t, …, 5000 t + 4999` of its left operand with its right
  operand; the second adds a one-row bias to every row of the block, takes the maximum with zero, and multiplies by its
  right operand.  Row `p` of a product depends on row `p` of the left factor only, so block `t` of the result is rows
  `5000 t, …` of the product of the WHOLE arrays; the 20 blocks cover every row (row `r` lies in block `r / 5000`), so
  the array each kernel leaves is that product:  `A B`  and  `max (X + b, 0) W`.
-/
import proofs.«107560_j37632503447782_2_alg».proof.Proof.Gen.KernelIdeal.Frame
import proofs.«107560_j37632503447782_2_alg».proof.Proof.LibDense
import proofs.«107560_j37632503447782_2_alg».proof.Proof.LibLogSoftmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

open Cert.Dense (Mat mm reluBias)

theorem originOffsets : (![0, 0] : Fin 2 → Nat) = fun _ => 0 := funext fun a => by fin_cases a <;> rfl

/-! ## Row blocks of a matrix product

Row `p` of a product depends on row `p` of the left factor only. So when a block `x` holds rows
`n · Mb, …, n · Mb + Mb - 1` of a tall matrix `A`, the product of the block with `B` is that same range of rows of `A B`;
the same with a bias row added and the result rectified before the product. -/

/-- Rows of the rectified biased matrix depend on the same rows of the matrix only. -/
theorem reluBias_rows {M M' N : ℕ} (X : Mat M N) (X' : Mat M' N) (b : Mat 1 N) (p : Fin M) (p' : Fin M')
    (hX : ∀ k, X' (ix2 p' k) = X (ix2 p k)) (q : Fin N) :
    reluBias X' b (ix2 p' q) = reluBias X b (ix2 p q) := by
  show max (X' (ix2 p' q) + b _) 0 = max (X (ix2 p q) + b _) 0
  rw [hX]
  rfl

/-- The product of block `n` of the rows of `A` with `B`, read at `j`, is `A B` read at the index `i` whose row is
    `n · Mb` further down. -/
theorem mm_block {Mb Ma K N : ℕ} (A : Mat Ma K) (B : Mat K N) (x0 : Mat Mb K) (x1 : Mat K N) (n : ℕ)
    (hx0 : ∀ (p : Fin Mb) (P : Fin Ma) (k : Fin K), P.val = n * Mb + p.val → x0 (ix2 p k) = A (ix2 P k))
    (hx1 : x1 = B) (j : (⟨2, ![Mb, N]⟩ : Shape).Idx) (i : (⟨2, ![Ma, N]⟩ : Shape).Idx)
    (hi0 : (i 0).val = n * Mb + (j 0).val) (hi1 : (i 1).val = (j 1).val) :
    mm x0 x1 j = mm A B i := by
  obtain ⟨p, q, rfl⟩ : ∃ (p : Fin Mb) (q : Fin N), j = ix2 p q := ⟨j 0, j 1, eq_ix2 j⟩
  obtain ⟨P, Q, rfl⟩ : ∃ (P : Fin Ma) (Q : Fin N), i = ix2 P Q := ⟨i 0, i 1, eq_ix2 i⟩
  obtain rfl : Q = q := Fin.ext hi1
  subst hx1
  exact Cert.Dense.mm_rows A x0 x1 P p (fun k => hx0 p P k hi0) Q

/-- The same for the rectified biased block. -/
theorem mm_reluBias_block {Mb Ma K N : ℕ} (A : Mat Ma K) (b : Mat 1 K) (B : Mat K N) (x0 : Mat Mb K) (x1 : Mat 1 K)
    (x2 : Mat K N) (n : ℕ)
    (hx0 : ∀ (p : Fin Mb) (P : Fin Ma) (k : Fin K), P.val = n * Mb + p.val → x0 (ix2 p k) = A (ix2 P k))
    (hx1 : x1 = b) (hx2 : x2 = B) (j : (⟨2, ![Mb, N]⟩ : Shape).Idx) (i : (⟨2, ![Ma, N]⟩ : Shape).Idx)
    (hi0 : (i 0).val = n * Mb + (j 0).val) (hi1 : (i 1).val = (j 1).val) :
    mm (reluBias x0 x1) x2 j = mm (reluBias A b) B i := by
  subst hx1
  exact mm_block (reluBias A x1) B (reluBias x0 x1) x2 n
    (fun p P k h => reluBias_rows A x0 x1 P p (fun k' => hx0 p P k' h) k) hx2 j i hi0 hi1

/-! ## The first kernel: a matrix product, row block by row block -/

/-- The body's arithmetic on its loaded blocks is the matrix product (the narrowing casts are the identity on the
    extended reals, the accumulator is zero). -/
theorem productPayload (x0 : Vec Ideal S5000x128 .f32) (x1 : Vec Ideal S128x64 .f32) :
    k0_pay1 x0 x1 = mm x0 x1 := by
  unfold k0_pay1
  exact Cert.Dense.matmul_zero_eq_mm dot_S5000x128_S128x64_S5000x64_1_0_0_1_n_n rfl rfl rfl rfl rfl rfl none _ _

/-- The index maps over the grid: the row-blocked windows are at block `(t, 0)` at point `t`, the whole right factor
    at block `(0, 0)`. -/
theorem productIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem productFlushed (c : Dev nD) (t : Fin cfg0.N) :
    (dat0 (F := Ideal) V c).flushed 2 t
      = ((cfg0.win 2).blk t).view.read (Elt Ideal) (mm (M := 100000) (K := 128) (N := 64) (V c main_arg0) (V c main_arg2)) := by
  show (cfg0.win 2).cut (grid0.coords t) ((dat0 V c).after 2 t) = _
  rw [after0_2]
  unfold out0_2
  rw [View.canon_unit_zero originOffsets]
  simp only [View.ld_unit_zero (S := S5000x128) originOffsets, View.ld_unit_zero (S := S128x64) originOffsets]
  rw [productPayload]
  obtain ⟨e0, e1, e2, e3, e4, e5⟩ := productIdx t
  funext j
  refine mm_block (Mb := 5000) (Ma := 100000) (K := 128) (N := 64) (V c main_arg0) (V c main_arg2) (iblk0 V c 0 t) (iblk0 V c 1 t) t.val ?_ ?_ j (((cfg0.win 2).blk t).view.emb j) ?_ ?_
  · intro p P k hP
    show V c main_arg0 (((cfg0.win 0).blk t).view.emb (ix2 p k)) = V c main_arg0 (ix2 P k)
    refine congrArg (V c main_arg0) (funext fun a => Fin.ext ?_)
    match a with
    | ⟨0, _⟩ => show win0_0.index t (0 : Fin 2) * 5000 + 1 * p.val = P.val; omega
    | ⟨1, _⟩ => show win0_0.index t (1 : Fin 2) * 128 + 1 * k.val = k.val; omega
  · funext y
    show V c main_arg2 (((cfg0.win 1).blk t).view.emb y) = V c main_arg2 y
    refine congrArg (V c main_arg2) (funext fun a => Fin.ext ?_)
    match a with
    | ⟨0, _⟩ => show win0_1.index t (0 : Fin 2) * 128 + 1 * (y 0).val = (y 0).val; omega
    | ⟨1, _⟩ => show win0_1.index t (1 : Fin 2) * 64 + 1 * (y 1).val = (y 1).val; omega
  · show win0_2.index t (0 : Fin 2) * 5000 + 1 * (j 0).val = t.val * 5000 + (j 0).val; omega
  · show win0_2.index t (1 : Fin 2) * 64 + 1 * (j 1).val = (j 1).val; omega

/-- An index of the array is in point `t`'s block iff each coordinate is in the block's range on its axis. -/
theorem productMemBlk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v15).slice (win0_2.rect t)).set ↔ _
  rw [View.set_slice_whole, Rect.mem_set_unit]
  exact Iff.rfl

/-- Every index of the array is in the block of the point its row falls in. -/
theorem productCover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by omega⟩
  have ht : t.val = (i 0).val / 5000 := rfl
  obtain ⟨e0, e1, e2, e3, e4, e5⟩ := productIdx t
  refine ⟨t, flush0_2 t, ?_⟩
  rw [productMemBlk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The array the first kernel leaves is the product of the two arrays it was given. -/
theorem final0 (c : Dev nD) :
    (dat0 (F := Ideal) V c).arrAt 2 cfg0.N = mm (M := 100000) (K := 128) (N := 64) (V c main_arg0) (V c main_arg2) :=
  (dat0 V c).arrAt_eq_of_cover 2 _ (fun t _ => productFlushed V c t) productCover

/-! ## The second kernel: bias, rectification, then a matrix product, row block by row block -/

/-- The body's arithmetic on its loaded blocks: the bias row added to every row, the maximum with zero, the matrix
    product (the same-shape casts and the narrowing casts are the identity, the accumulator is zero). -/
theorem layerPayload (x0 : Vec Ideal S5000x64 .f32) (x1 : Vec Ideal S1x64 .f32) (x2 : Vec Ideal S64x47 .f32) :
    k1_pay1 x0 x1 x2 = mm (reluBias x0 x1) x2 := by
  unfold k1_pay1
  simp only [shapeCast_self]
  refine (Cert.Dense.matmul_zero_eq_mm dot_S5000x64_S64x47_S5000x47_1_0_0_1_n_n rfl rfl rfl rfl rfl rfl none _ _).trans ?_
  congr 1
  exact Cert.Dense.vecReluBias x0 x1 broadcasts_S1x64_S5000x64

/-- The index maps over the grid: the row-blocked windows are at block `(t, 0)` at point `t`, the bias row and the
    right factor at block `(0, 0)`. -/
theorem layerIdx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the layer applied to the arrays as the region finds them. -/
theorem layerFlushed (c : Dev nD) (t : Fin cfg1.N) :
    (dat1 (F := Ideal) V c).flushed 3 t
      = ((cfg1.win 3).blk t).view.read (Elt Ideal)
          (mm (M := 100000) (K := 64) (N := 47) (reluBias (M := 100000) (N := 64) (V c main_v40) (V c main_v41)) (V c main_arg4)) := by
  show (cfg1.win 3).cut (grid1.coords t) ((dat1 V c).after 3 t) = _
  rw [after1_3]
  unfold out1_3
  rw [View.canon_unit_zero originOffsets]
  simp only [View.ld_unit_zero (S := S5000x64) originOffsets, View.ld_unit_zero (S := S1x64) originOffsets, View.ld_unit_zero (S := S64x47) originOffsets]
  rw [layerPayload]
  obtain ⟨e0, e1, e2, e3, e4, e5, e6, e7⟩ := layerIdx t
  funext j
  refine mm_reluBias_block (Mb := 5000) (Ma := 100000) (K := 64) (N := 47) (V c main_v40) (V c main_v41) (V c main_arg4)
    (iblk1 V c 0 t) (iblk1 V c 1 t) (iblk1 V c 2 t) t.val ?_ ?_ ?_ j (((cfg1.win 3).blk t).view.emb j) ?_ ?_
  · intro p P k hP
    show V c main_v40 (((cfg1.win 0).blk t).view.emb (ix2 p k)) = V c main_v40 (ix2 P k)
    refine congrArg (V c main_v40) (funext fun a => Fin.ext ?_)
    match a with
    | ⟨0, _⟩ => show win1_0.index t (0 : Fin 2) * 5000 + 1 * p.val = P.val; omega
    | ⟨1, _⟩ => show win1_0.index t (1 : Fin 2) * 64 + 1 * k.val = k.val; omega
  · funext y
    show V c main_v41 (((cfg1.win 1).blk t).view.emb y) = V c main_v41 y
    refine congrArg (V c main_v41) (funext fun a => Fin.ext ?_)
    match a with
    | ⟨0, _⟩ => show win1_1.index t (0 : Fin 2) * 1 + 1 * (y 0).val = (y 0).val; omega
    | ⟨1, _⟩ => show win1_1.index t (1 : Fin 2) * 64 + 1 * (y 1).val = (y 1).val; omega
  · funext y
    show V c main_arg4 (((cfg1.win 2).blk t).view.emb y) = V c main_arg4 y
    refine congrArg (V c main_arg4) (funext fun a => Fin.ext ?_)
    match a with
    | ⟨0, _⟩ => show win1_2.index t (0 : Fin 2) * 64 + 1 * (y 0).val = (y 0).val; omega
    | ⟨1, _⟩ => show win1_2.index t (1 : Fin 2) * 47 + 1 * (y 1).val = (y 1).val; omega
  · show win1_3.index t (0 : Fin 2) * 5000 + 1 * (j 0).val = t.val * 5000 + (j 0).val; omega
  · show win1_3.index t (1 : Fin 2) * 47 + 1 * (j 1).val = (j 1).val; omega

/-- An index of the array is in point `t`'s block iff each coordinate is in the block's range on its axis. -/
theorem layerMemBlk (t : Fin cfg1.N) (i : S100000x47.Idx) :
    i ∈ ((cfg1.win 3).blk t).view.set ↔ ∀ a : Fin 2, win1_3.index t a * S5000x47.size a ≤ (i a).val ∧ (i a).val < win1_3.index t a * S5000x47.size a + S5000x47.size a := by
  show i ∈ ((View.whole main_v42).slice (win1_3.rect t)).set ↔ _
  rw [View.set_slice_whole, Rect.mem_set_unit]
  exact Iff.rfl

/-- Every index of the array is in the block of the point its row falls in. -/
theorem layerCover (i : S100000x47.Idx) : ∃ t : Fin cfg1.N, (cfg1.win 3).flush t = true ∧ i ∈ ((cfg1.win 3).blk t).view.set := by
  have hi0 : (i 0).val < 100000 := (i 0).isLt
  have hi1 : (i 1).val < 47 := (i 1).isLt
  have hN : cfg1.N = 20 := N_1
  let t : Fin cfg1.N := ⟨(i 0).val / 5000, by omega⟩
  have ht : t.val = (i 0).val / 5000 := rfl
  obtain ⟨e0, e1, e2, e3, e4, e5, e6, e7⟩ := layerIdx t
  refine ⟨t, flush1_3 t, ?_⟩
  rw [layerMemBlk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 47 ≤ (i 1).val ∧ (i 1).val < win1_3.index t (1 : Fin 2) * 47 + 47; omega

/-- The array the second kernel leaves: the bias row added to every row of its first array, the maximum with zero,
    then the product with its last array. -/
theorem final1 (c : Dev nD) :
    (dat1 (F := Ideal) V c).arrAt 3 cfg1.N
      = mm (M := 100000) (K := 64) (N := 47) (reluBias (M := 100000) (N := 64) (V c main_v40) (V c main_v41)) (V c main_arg4) :=
  (dat1 V c).arrAt_eq_of_cover 3 _ (fun t _ => layerFlushed V c t) layerCover

end Cert.KernelIdeal.RegionValue

end
-- ==== Proof.KRegionSoftmax.lean ====
/-
  The third region: the bias row added to every row of the logits, then the row-wise log-softmax.

  The region walks the 100000 rows in 20 blocks of 5000 rows; the bias row is read whole at every point.  At a block
  the body adds the bias row to each row, subtracts each row's maximum, and subtracts the logarithm of the row's sum of
  exponentials: the row-wise log-softmax of the biased block.  Row p of a block's result depends on row p of the block
  only, and row p of block t is row 5000 t + p of the array, so what point t writes back is block t of the log-softmax
  of the whole biased array.  The 20 blocks cover the array (row r lies in block r / 5000), so the array ends holding
  that function of the two arrays the region found.
-/
import proofs.«107560_j37632503447782_2_alg».proof.Proof.Gen.KernelIdeal.Frame
import proofs.«107560_j37632503447782_2_alg».proof.Proof.LibDense
import proofs.«107560_j37632503447782_2_alg».proof.Proof.LibLogSoftmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

open Cert.Dense Cert.LogSoftmax

/-- The body's arithmetic: the bias row added to every row, then the row-wise log-softmax. -/
theorem softmaxPayload (x0 : Vec Ideal S5000x47 .f32) (x1 : Vec Ideal S1x47 .f32) :
    k2_pay1 x0 x1 = lsm (addRow x0 x1) := by
  unfold k2_pay1
  simp only [shapeCast_self]
  rw [vecAddRow]
  exact vecLsm _ _ _ _ _ _ _

/-- The windows' index maps, decided over the grid: the row-blocked windows sit at block (t, 0), the bias row at (0, 0). -/
theorem softmaxIdx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem zeroOffsets : (![0, 0] : Fin 2 → Nat) = fun _ => 0 := funext fun a => by fin_cases a <;> rfl

/-- Row p of a block's result is row P of the whole array's, when row p of the block is row P of the array. -/
theorem softmax_block_row (X : Mat 100000 47) (b : Mat 1 47) (x0 : Mat 5000 47) (p : Fin 5000) (P : Fin 100000)
    (h0 : ∀ k : Fin 47, x0 (ix2 p k) = X (ix2 P k)) (q : Fin 47) :
    lsm (addRow x0 b) (ix2 p q) = lsm (addRow X b) (ix2 P q) :=
  lsm_rows (addRow X b) (addRow x0 b) P p (fun k => addRow_rows X x0 b P p h0 k) q

/-- The row-blocked input's block at point t is rows 5000 t … 5000 t + 4999 of its array. -/
theorem logitsBlock_apply (c : Dev nD) (t : Fin cfg2.N) (x : S5000x47.Idx) (k : S100000x47.Idx)
    (hk0 : (k 0).val = t.val * 5000 + (x 0).val) (hk1 : (k 1).val = (x 1).val) :
    (iblk2 V c 0 t : Vec Ideal S5000x47 .f32) x = (V c main_v67 : S100000x47.Idx → EReal) k := by
  obtain ⟨e0, e1, -⟩ := softmaxIdx t
  unfold iblk2
  rw [View.read_apply]
  show V c main_v67 _ = V c main_v67 _
  congr 1
  funext a
  apply Fin.ext
  match a with
  | ⟨0, _⟩ => show win2_0.index t (0 : Fin 2) * 5000 + 1 * (x 0).val = (k 0).val; rw [e0, hk0]; omega
  | ⟨1, _⟩ => show win2_0.index t (1 : Fin 2) * 47 + 1 * (x 1).val = (k 1).val; rw [e1, hk1]; omega

/-- The bias window's block at every point is the bias row itself. -/
theorem biasBlock (c : Dev nD) (t : Fin cfg2.N) :
    (iblk2 V c 1 t : Vec Ideal S1x47 .f32) = (V c main_v68 : S1x47.Idx → EReal) := by
  obtain ⟨-, -, e2, e3, -⟩ := softmaxIdx t
  funext x
  unfold iblk2
  rw [View.read_apply]
  show V c main_v68 _ = V c main_v68 _
  congr 1
  funext a
  apply Fin.ext
  match a with
  | ⟨0, _⟩ => show win2_1.index t (0 : Fin 2) * 1 + 1 * (x 0).val = (x 0).val; rw [e2]; omega
  | ⟨1, _⟩ => show win2_1.index t (1 : Fin 2) * 47 + 1 * (x 1).val = (x 1).val; rw [e3]; omega

/-- What point t writes back is block t of the log-softmax of the biased logits as the region finds them. -/
theorem softmaxFlushed (c : Dev nD) (t : Fin cfg2.N) :
    (dat2 (F := Ideal) V c).flushed 2 t
      = ((cfg2.win 2).blk t).view.read (Elt Ideal) (lsm (addRow (V c main_v67) (V c main_v68))) := by
  show (cfg2.win 2).cut (grid2.coords t) ((dat2 V c).after 2 t) = _
  rw [after2_2]
  unfold out2_2
  rw [View.canon_unit_zero zeroOffsets]
  simp only [View.ld_unit_zero (S := S5000x47) zeroOffsets, View.ld_unit_zero (S := S1x47) zeroOffsets]
  rw [softmaxPayload, biasBlock V c t]
  obtain ⟨-, -, -, -, e4, e5⟩ := softmaxIdx t
  funext j
  obtain ⟨p, q, rfl⟩ : ∃ (p : Fin 5000) (q : Fin 47), j = ix2 p q := ⟨j 0, j 1, eq_ix2 j⟩
  have ht : t.val < 20 := t.isLt
  have hP : t.val * 5000 + p.val < 100000 := by have := p.isLt; omega
  show lsm (addRow (iblk2 V c 0 t) (V c main_v68)) (ix2 p q)
    = lsm (addRow (V c main_v67) (V c main_v68)) (((cfg2.win 2).blk t).view.emb (ix2 p q))
  have hemb : ((cfg2.win 2).blk t).view.emb (ix2 p q) = ix2 (⟨t.val * 5000 + p.val, hP⟩ : Fin 100000) q := by
    funext a; apply Fin.ext
    match a with
    | ⟨0, _⟩ => show win2_2.index t (0 : Fin 2) * 5000 + 1 * p.val = t.val * 5000 + p.val; rw [e4]; omega
    | ⟨1, _⟩ => show win2_2.index t (1 : Fin 2) * 47 + 1 * q.val = q.val; rw [e5]; omega
  rw [hemb]
  exact softmax_block_row _ _ _ p _ (fun k => logitsBlock_apply V c t (ix2 p k) (ix2 _ k) rfl rfl) q

/-- An index of the array is in point t's block iff each coordinate is in the block's range on its axis. -/
theorem softmaxMemBlk (t : Fin cfg2.N) (i : S100000x47.Idx) :
    i ∈ ((cfg2.win 2).blk t).view.set ↔ ∀ a : Fin 2, win2_2.index t a * S5000x47.size a ≤ (i a).val ∧ (i a).val < win2_2.index t a * S5000x47.size a + S5000x47.size a := by
  show i ∈ ((View.whole main_v69).slice (win2_2.rect t)).set ↔ _
  rw [View.set_slice_whole, Rect.mem_set_unit]
  exact Iff.rfl

/-- Every row of the array is in the block of the point numbered by the row's quotient by 5000. -/
theorem softmaxCover (i : S100000x47.Idx) :
    ∃ t : Fin cfg2.N, (cfg2.win 2).flush t = true ∧ i ∈ ((cfg2.win 2).blk t).view.set := by
  have hi0 : (i 0).val < 100000 := (i 0).isLt
  have hi1 : (i 1).val < 47 := (i 1).isLt
  have hlt : (i 0).val / 5000 < 20 := by omega
  obtain ⟨t, ht⟩ : ∃ t : Fin cfg2.N, t.val = (i 0).val / 5000 := ⟨⟨(i 0).val / 5000, hlt⟩, rfl⟩
  refine ⟨t, flush2_2 t, ?_⟩
  rw [softmaxMemBlk]
  obtain ⟨-, -, -, -, e4, e5⟩ := softmaxIdx t
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 47 ≤ (i 1).val ∧ (i 1).val < win2_2.index t (1 : Fin 2) * 47 + 47
    rw [e5]; omega

/-- The result array after the region: the row-wise log-softmax of the logits with the bias row added, as the
    region finds them. -/
theorem final2 (c : Dev nD) :
    (dat2 (F := Ideal) V c).arrAt 2 cfg2.N = lsm (addRow (V c main_v67) (V c main_v68)) :=
  (dat2 (F := Ideal) V c).arrAt_eq_of_cover 2 (lsm (addRow (V c main_v67) (V c main_v68)))
    (fun t _ => softmaxFlushed V c t) softmaxCover

end Cert.KernelIdeal.RegionValue

end
-- ==== Proof.KValue.lean ====
/-
  The idealized kernel's result as one function of its six arguments.

  Each region's output array, when the region ends, is one whole-array function of the arrays the region was entered
  with (a matrix product; a rectified biased array times a matrix; a row-wise log-softmax of a biased array), and each
  host stretch is a function of the contents before it.  Composed from the launch memory to the return, the result is
  `kernelSpec`: both aggregations rows-scaled-first, with the degree array, its inverse square root and the square of
  that computed once from the destination row of the edge list.
-/
import proofs.«107560_j37632503447782_2_alg».proof.Proof.KRun
import proofs.«107560_j37632503447782_2_alg».proof.Proof.KHost
import proofs.«107560_j37632503447782_2_alg».proof.Proof.KRegionMatmul
import proofs.«107560_j37632503447782_2_alg».proof.Proof.KRegionSoftmax

set_option maxRecDepth 16384

noncomputable section

namespace Cert.KernelIdeal.KernelValue

open Cert.KernelIdeal Cert.KernelIdeal.Gen Cert.KernelIdeal.HostValue Cert.KernelIdeal.RegionValue
open Idealize.ShloMosaic Idealize.ShloMosaic.TcCoe Idealize.SL.Sem Idealize.ShloMosaic.StableHlo
open Cert.GcnAgg Cert.Dense Cert.LogSoftmax

/-- The kernel's result as a function of its arguments. -/
def kernelSpec (x : FVec Ideal S100000x128 .f32) (e : IVec S2x1600000 32) (w1 : FVec Ideal S128x64 .f32)
    (b1 : FVec Ideal S64 .f32) (w2 : FVec Ideal S64x47 .f32) (b2 : FVec Ideal S47 .f32) : FVec Ideal S100000x47 .f32 :=
  lsm (addRow
    (agg47 (normCol (srcRow e)) (normCol (dstRow e)) (Host.rsqrt (degCol (normCol (dstRow e))))
      (mulf (Host.rsqrt (degCol (normCol (dstRow e)))) (Host.rsqrt (degCol (normCol (dstRow e)))))
      (mm (reluBias
          (agg64 (normCol (srcRow e)) (normCol (dstRow e)) (Host.rsqrt (degCol (normCol (dstRow e))))
            (mulf (Host.rsqrt (degCol (normCol (dstRow e)))) (Host.rsqrt (degCol (normCol (dstRow e)))))
            (mm x w1))
          (shapeCast S1x64 b1 shapeCasts_S64_S1x64)) w2))
    (shapeCast S1x47 b2 shapeCasts_S47_S1x47))

variable (m : (ℓ : Loc nD τ sig) → Buf (Elt Ideal) ℓ) (ρ : Dev nD → PrngReg) (c : Dev nD)

/-! ## What passes through the stretches and the regions unchanged -/

theorem W2_v1 : W2 m ρ c (Proc.devRef .tc main_v1) = srcRow (m ((c : Thread nD τ).loc main_arg1)) :=
  (W2_of_ne m ρ c main_v1 (by decide)).trans (s0_v1 (W0 m ρ c))
theorem W4_v1 : W4 m ρ c (Proc.devRef .tc main_v1) = srcRow (m ((c : Thread nD τ).loc main_arg1)) :=
  (W4_of_ne m ρ c main_v1 (by decide)).trans ((s1_keep_v1 (W2 m ρ c)).trans (W2_v1 m ρ c))
theorem W2_v3 : W2 m ρ c (Proc.devRef .tc main_v3) = dstRow (m ((c : Thread nD τ).loc main_arg1)) :=
  (W2_of_ne m ρ c main_v3 (by decide)).trans (s0_v3 (W0 m ρ c))
theorem W4_v3 : W4 m ρ c (Proc.devRef .tc main_v3) = dstRow (m ((c : Thread nD τ).loc main_arg1)) :=
  (W4_of_ne m ρ c main_v3 (by decide)).trans ((s1_keep_v3 (W2 m ρ c)).trans (W2_v3 m ρ c))
theorem W2_v13 : W2 m ρ c (Proc.devRef .tc main_v13) = Host.rsqrt (degCol (normCol (dstRow (m ((c : Thread nD τ).loc main_arg1))))) :=
  (W2_of_ne m ρ c main_v13 (by decide)).trans (s0_v13 (W0 m ρ c))
theorem W4_v13 : W4 m ρ c (Proc.devRef .tc main_v13) = Host.rsqrt (degCol (normCol (dstRow (m ((c : Thread nD τ).loc main_arg1))))) :=
  (W4_of_ne m ρ c main_v13 (by decide)).trans ((s1_keep_v13 (W2 m ρ c)).trans (W2_v13 m ρ c))
theorem W2_v14 : W2 m ρ c (Proc.devRef .tc main_v14) = mulf (Host.rsqrt (degCol (normCol (dstRow (m ((c : Thread nD τ).loc main_arg1)))))) (Host.rsqrt (degCol (normCol (dstRow (m ((c : Thread nD τ).loc main_arg1)))))) :=
  (W2_of_ne m ρ c main_v14 (by decide)).trans (s0_v14 (W0 m ρ c))
theorem W4_v14 : W4 m ρ c (Proc.devRef .tc main_v14) = mulf (Host.rsqrt (degCol (normCol (dstRow (m ((c : Thread nD τ).loc main_arg1)))))) (Host.rsqrt (degCol (normCol (dstRow (m ((c : Thread nD τ).loc main_arg1)))))) :=
  (W4_of_ne m ρ c main_v14 (by decide)).trans ((s1_keep_v14 (W2 m ρ c)).trans (W2_v14 m ρ c))

theorem W1_arg0 : W1 m ρ c (Proc.devRef .tc main_arg0) = m ((c : Thread nD τ).loc main_arg0) := s0_keep_arg0 (W0 m ρ c)
theorem W1_arg2 : W1 m ρ c (Proc.devRef .tc main_arg2) = m ((c : Thread nD τ).loc main_arg2) := s0_keep_arg2 (W0 m ρ c)
theorem W2_arg3 : W2 m ρ c (Proc.devRef .tc main_arg3) = m ((c : Thread nD τ).loc main_arg3) :=
  (W2_of_ne m ρ c main_arg3 (by decide)).trans (s0_keep_arg3 (W0 m ρ c))
theorem W2_arg4 : W2 m ρ c (Proc.devRef .tc main_arg4) = m ((c : Thread nD τ).loc main_arg4) :=
  (W2_of_ne m ρ c main_arg4 (by decide)).trans (s0_keep_arg4 (W0 m ρ c))
theorem W2_arg5 : W2 m ρ c (Proc.devRef .tc main_arg5) = m ((c : Thread nD τ).loc main_arg5) :=
  (W2_of_ne m ρ c main_arg5 (by decide)).trans (s0_keep_arg5 (W0 m ρ c))
theorem W3_arg4 : W3 m ρ c (Proc.devRef .tc main_arg4) = m ((c : Thread nD τ).loc main_arg4) :=
  (s1_keep_arg4 (W2 m ρ c)).trans (W2_arg4 m ρ c)
theorem W4_arg5 : W4 m ρ c (Proc.devRef .tc main_arg5) = m ((c : Thread nD τ).loc main_arg5) :=
  (W4_of_ne m ρ c main_arg5 (by decide)).trans ((s1_keep_arg5 (W2 m ρ c)).trans (W2_arg5 m ρ c))

/-! ## The three regions' outputs -/

/-- The first region leaves the product of the node features with the first weights. -/
theorem W2_v15 : W2 m ρ c (Proc.devRef .tc main_v15)
    = mm (m ((c : Thread nD τ).loc main_arg0)) (m ((c : Thread nD τ).loc main_arg2)) := by
  refine ((W2_arr m ρ c 2).trans (final0 (V1 m ρ) c)).trans ?_
  show mm (W1 m ρ c (Proc.devRef .tc main_arg0)) (W1 m ρ c (Proc.devRef .tc main_arg2)) = _
  rw [W1_arg0, W1_arg2]

/-- The second stretch leaves the first aggregate and the first bias as a row. -/
theorem W3_v40 : W3 m ρ c (Proc.devRef .tc main_v40)
    = agg64 (normCol (srcRow (m ((c : Thread nD τ).loc main_arg1)))) (normCol (dstRow (m ((c : Thread nD τ).loc main_arg1))))
        (Host.rsqrt (degCol (normCol (dstRow (m ((c : Thread nD τ).loc main_arg1))))))
        (mulf (Host.rsqrt (degCol (normCol (dstRow (m ((c : Thread nD τ).loc main_arg1)))))) (Host.rsqrt (degCol (normCol (dstRow (m ((c : Thread nD τ).loc main_arg1)))))))
        (mm (m ((c : Thread nD τ).loc main_arg0)) (m ((c : Thread nD τ).loc main_arg2))) := by
  refine (s1_v40 (W2 m ρ c)).trans ?_
  rw [W2_v1, W2_v3, W2_v13, W2_v14, W2_v15]
theorem W3_v41 : W3 m ρ c (Proc.devRef .tc main_v41) = shapeCast S1x64 (m ((c : Thread nD τ).loc main_arg3)) shapeCasts_S64_S1x64 := by
  refine (s1_v41 (W2 m ρ c)).trans ?_
  rw [W2_arg3]

/-- The second region leaves the rectified biased aggregate times the second weights. -/
theorem W4_v42 : W4 m ρ c (Proc.devRef .tc main_v42)
    = mm (reluBias (W3 m ρ c (Proc.devRef .tc main_v40)) (W3 m ρ c (Proc.devRef .tc main_v41))) (m ((c : Thread nD τ).loc main_arg4)) := by
  refine ((W4_arr m ρ c 3).trans (final1 (V3 m ρ) c)).trans ?_
  show mm (reluBias (W3 m ρ c (Proc.devRef .tc main_v40)) (W3 m ρ c (Proc.devRef .tc main_v41))) (W3 m ρ c (Proc.devRef .tc main_arg4)) = _
  rw [W3_arg4]

/-- THE KERNEL'S RESULT: the last boundary's contents at the result buffer are `kernelSpec` of the launch contents of
    the six arguments. -/
theorem kernel_value : W6 m ρ c (Proc.devRef .tc main_v69)
    = kernelSpec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine ((W6_arr m ρ c 2).trans (final2 (V5 m ρ) c)).trans ?_
  show lsm (addRow (StableHlo.after (hostOps2 (F := Ideal)) (W4 m ρ c) (Proc.devRef .tc main_v67)) (StableHlo.after (hostOps2 (F := Ideal)) (W4 m ρ c) (Proc.devRef .tc main_v68))) = _
  rw [s2_v67 (W4 m ρ c), s2_v68 (W4 m ρ c), W4_v1, W4_v3, W4_v13, W4_v14, W4_arg5, W4_v42, W3_v40, W3_v41]
  rfl

end Cert.KernelIdeal.KernelValue

end
-- ==== Proof.RefValue.lean ====
/-
  The idealized reference's run, read stretch by stretch.

  The reference is one line of 156 host operations.  It is cut here into four stretches: the edge list's rows, the first
  matrix product and the degree array with its inverse square root; the first aggregation, edges weighted
  (`Cert.GcnAgg.aggEdges`), the bias, the rectifier and the second matrix product; the second aggregation (which computes
  the degree array again, from the same destination row) and the second bias; the row-wise log-softmax.  Each stretch is
  read as a function of the buffer contents it starts from; a stretch writes only its own result buffers.
-/
import proofs.«107560_j37632503447782_2_alg».proof.Proof.RefRun
import proofs.«107560_j37632503447782_2_alg».proof.Proof.LibGcnAgg
import Idealize.ShloMosaic.Lib.StableHlo.Run
import Idealize.ShloMosaic.Lib.Pipeline.Frame

set_option maxRecDepth 16384

noncomputable section

namespace Cert.ReferenceIdeal.RefValue

open Cert.ReferenceIdeal Cert.ReferenceIdeal.Gen Cert.ReferenceIdeal.ValueP Idealize.ShloMosaic Idealize.ShloMosaic.TcCoe Idealize.SL.Sem Idealize.ShloMosaic.StableHlo
open Cert.GcnAgg

section Ops
variable {F : FTy → Type} [FloatOps F]

/-- The first stretch: the edge list's rows, the first product, the degrees and their inverse square roots. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_cst (constant S_ .f32 0x3F800000#32),
    unary main_cst main_v5 (broadcastInDim S100000 ![] bcast_S_S100000 : (⟨S_, .f32⟩ : BufTy).Contents (Elt F) → (⟨S100000, .f32⟩ : BufTy).Contents (Elt F)),
    nullary main_c (constantI S_ 32 0#32),
    unary main_c main_v6 (broadcastInDim S1600000 ![] bcast_S_S1600000 : (⟨S_, .i32⟩ : BufTy).Contents (Elt F) → (⟨S1600000, .i32⟩ : BufTy).Contents (Elt F)),
    binary main_v3 main_v6 main_v7 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v8 (broadcastInDim S1600000 ![] bcast_S_S1600000 : (⟨S_, .i32⟩ : BufTy).Contents (Elt F) → (⟨S1600000, .i32⟩ : BufTy).Contents (Elt F)),
    binary main_v3 main_v8 main_v9 (addi : (⟨S1600000, .i32⟩ : BufTy).Contents (Elt F) → (⟨S1600000, .i32⟩ : BufTy).Contents (Elt F) → (⟨S1600000, .i32⟩ : BufTy).Contents (Elt F)),
    ternary main_v7 main_v9 main_v3 main_v10 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v10 main_v11 (broadcastInDim S1600000x1 ![0] bcast_S1600000_S1600000x1_0 : (⟨S1600000, .i32⟩ : BufTy).Contents (Elt F) → (⟨S1600000x1, .i32⟩ : BufTy).Contents (Elt F)),
    nullary main_cst_1 (constant S_ .f32 0x3F800000#32),
    unary main_cst_1 main_v12 (broadcastInDim S1600000 ![] bcast_S_S1600000 : (⟨S_, .f32⟩ : BufTy).Contents (Elt F) → (⟨S1600000, .f32⟩ : BufTy).Contents (Elt F)),
    ternary main_v5 main_v11 main_v12 main_v13 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    unary main_v13 main_v14 (Host.rsqrt : (⟨S100000, .f32⟩ : BufTy).Contents (Elt F) → (⟨S100000, .f32⟩ : BufTy).Contents (Elt F)) ]

/-- The second stretch: the first aggregation, the bias, the rectifier (its three operations over the call's buffers), the second product. -/
abbrev opsB : List (HloOp τ sig (Elt F)) :=
  [ nullary main_c_2 (constantI S_ 32 0#32),
    unary main_c_2 main_v15 (broadcastInDim S1600000 ![] bcast_S_S1600000 : (⟨S_, .i32⟩ : BufTy).Contents (Elt F) → (⟨S1600000, .i32⟩ : BufTy).Contents (Elt F)),
    binary main_v1 main_v15 main_v16 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v17 (broadcastInDim S1600000 ![] bcast_S_S1600000 : (⟨S_, .i32⟩ : BufTy).Contents (Elt F) → (⟨S1600000, .i32⟩ : BufTy).Contents (Elt F)),
    binary main_v1 main_v17 main_v18 (addi : (⟨S1600000, .i32⟩ : BufTy).Contents (Elt F) → (⟨S1600000, .i32⟩ : BufTy).Contents (Elt F) → (⟨S1600000, .i32⟩ : BufTy).Contents (Elt F)),
    ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v19 main_v20 (broadcastInDim S1600000x1 ![0] bcast_S1600000_S1600000x1_0 : (⟨S1600000, .i32⟩ : BufTy).Contents (Elt F) → (⟨S1600000x1, .i32⟩ : BufTy).Contents (Elt F)),
    binary main_v14 main_v20 main_v21 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_4 (constantI S_ 32 0#32),
    unary main_c_4 main_v22 (broadcastInDim S1600000 ![] bcast_S_S1600000 : (⟨S_, .i32⟩ : BufTy).Contents (Elt F) → (⟨S1600000, .i32⟩ : BufTy).Contents (Elt F)),
    binary main_v3 main_v22 main_v23 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v24 (broadcastInDim S1600000 ![] bcast_S_S1600000 : (⟨S_, .i32⟩ : BufTy).Contents (Elt F) → (⟨S1600000, .i32⟩ : BufTy).Contents (Elt F)),
    binary main_v3 main_v24 main_v25 (addi : (⟨S1600000, .i32⟩ : BufTy).Contents (Elt F) → (⟨S1600000, .i32⟩ : BufTy).Contents (Elt F) → (⟨S1600000, .i32⟩ : BufTy).Contents (Elt F)),
    ternary main_v23 main_v25 main_v3 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v26 main_v27 (broadcastInDim S1600000x1 ![0] bcast_S1600000_S1600000x1_0 : (⟨S1600000, .i32⟩ : BufTy).Contents (Elt F) → (⟨S1600000x1, .i32⟩ : BufTy).Contents (Elt F)),
    binary main_v14 main_v27 main_v28 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v21 main_v28 main_v29 (mulf : (⟨S1600000, .f32⟩ : BufTy).Contents (Elt F) → (⟨S1600000, .f32⟩ : BufTy).Contents (Elt F) → (⟨S1600000, .f32⟩ : BufTy).Contents (Elt F)),
    nullary main_c_6 (constantI S_ 32 0#32),
    unary main_c_6 main_v30 (broadcastInDim S1600000 ![] bcast_S_S1600000 : (⟨S_, .i32⟩ : BufTy).Contents (Elt F) → (⟨S1600000, .i32⟩ : BufTy).Contents (Elt F)),
    binary main_v1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v32 (broadcastInDim S1600000 ![] bcast_S_S1600000 : (⟨S_, .i32⟩ : BufTy).Contents (Elt F) → (⟨S1600000, .i32⟩ : BufTy).Contents (Elt F)),
    binary main_v1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v4 main_v35 main_v36 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v29 main_v37 (broadcastInDim S1600000x1 ![0] bcast_S1600000_S1600000x1_0 : (⟨S1600000, .f32⟩ : BufTy).Contents (Elt F) → (⟨S1600000x1, .f32⟩ : BufTy).Contents (Elt F)),
    unary main_v37 main_v38 (broadcastInDim S1600000x64 ![0, 1] bcast_S1600000x1_S1600000x64_0_1 : (⟨S1600000x1, .f32⟩ : BufTy).Contents (Elt F) → (⟨S1600000x64, .f32⟩ : BufTy).Contents (Elt F)),
    binary main_v36 main_v38 main_v39 (mulf : (⟨S1600000x64, .f32⟩ : BufTy).Contents (Elt F) → (⟨S1600000x64, .f32⟩ : BufTy).Contents (Elt F) → (⟨S1600000x64, .f32⟩ : BufTy).Contents (Elt F)),
    nullary main_cst_8 (constant S_ .f32 0x00000000#32),
    unary main_cst_8 main_v40 (broadcastInDim S100000x64 ![] bcast_S_S100000x64 : (⟨S_, .f32⟩ : BufTy).Contents (Elt F) → (⟨S100000x64, .f32⟩ : BufTy).Contents (Elt F)),
    nullary main_c_9 (constantI S_ 32 0#32),
    unary main_c_9 main_v41 (broadcastInDim S1600000 ![] bcast_S_S1600000 : (⟨S_, .i32⟩ : BufTy).Contents (Elt F) → (⟨S1600000, .i32⟩ : BufTy).Contents (Elt F)),
    binary main_v3 main_v41 main_v42 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v43 (broadcastInDim S1600000 ![] bcast_S_S1600000 : (⟨S_, .i32⟩ : BufTy).Contents (Elt F) → (⟨S1600000, .i32⟩ : BufTy).Contents (Elt F)),
    binary main_v3 main_v43 main_v44 (addi : (⟨S1600000, .i32⟩ : BufTy).Contents (Elt F) → (⟨S1600000, .i32⟩ : BufTy).Contents (Elt F) → (⟨S1600000, .i32⟩ : BufTy).Contents (Elt F)),
    ternary main_v42 main_v44 main_v3 main_v45 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v45 main_v46 (broadcastInDim S1600000x1 ![0] bcast_S1600000_S1600000x1_0 : (⟨S1600000, .i32⟩ : BufTy).Contents (Elt F) → (⟨S1600000x1, .i32⟩ : BufTy).Contents (Elt F)),
    ternary main_v40 main_v46 main_v39 main_v47 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_11 (constant S_ .f32 0x3F800000#32),
    unary main_cst_11 main_v48 (broadcastInDim S100000 ![] bcast_S_S100000 : (⟨S_, .f32⟩ : BufTy).Contents (Elt F) → (⟨S100000, .f32⟩ : BufTy).Contents (Elt F)),
    binary main_v48 main_v13 main_v49 (Host.divf : (⟨S100000, .f32⟩ : BufTy).Contents (Elt F) → (⟨S100000, .f32⟩ : BufTy).Contents (Elt F) → (⟨S100000, .f32⟩ : BufTy).Contents (Elt F)),
    unary main_v49 main_v50 (broadcastInDim S100000x1 ![0] bcast_S100000_S100000x1_0 : (⟨S100000, .f32⟩ : BufTy).Contents (Elt F) → (⟨S100000x1, .f32⟩ : BufTy).Contents (Elt F)),
    unary main_v50 main_v51 (broadcastInDim S100000x64 ![0, 1] bcast_S100000x1_S100000x64_0_1 : (⟨S100000x1, .f32⟩ : BufTy).Contents (Elt F) → (⟨S100000x64, .f32⟩ : BufTy).Contents (Elt F)),
    binary main_v4 main_v51 main_v52 (mulf : (⟨S100000x64, .f32⟩ : BufTy).Contents (Elt F) → (⟨S100000x64, .f32⟩ : BufTy).Contents (Elt F) → (⟨S100000x64, .f32⟩ : BufTy).Contents (Elt F)),
    binary main_v47 main_v52 main_v53 (addf : (⟨S100000x64, .f32⟩ : BufTy).Contents (Elt F) → (⟨S100000x64, .f32⟩ : BufTy).Contents (Elt F) → (⟨S100000x64, .f32⟩ : BufTy).Contents (Elt F)),
    unary main_arg3 main_v54 (broadcastInDim S1x64 ![1] bcast_S64_S1x64_1 : (⟨S64, .f32⟩ : BufTy).Contents (Elt F) → (⟨S1x64, .f32⟩ : BufTy).Contents (Elt F)),
    unary main_v54 main_v55 (broadcastInDim S100000x64 ![0, 1] bcast_S1x64_S100000x64_0_1 : (⟨S1x64, .f32⟩ : BufTy).Contents (Elt F) → (⟨S100000x64, .f32⟩ : BufTy).Contents (Elt F)),
    binary main_v53 main_v55 main_v56 (addf : (⟨S100000x64, .f32⟩ : BufTy).Contents (Elt F) → (⟨S100000x64, .f32⟩ : BufTy).Contents (Elt F) → (⟨S100000x64, .f32⟩ : BufTy).Contents (Elt F)),
    nullary main_call0_cst (constant S_ .f32 0x00000000#32),
    unary main_call0_cst main_call0_v0 ((broadcastInDim S100000x64 ![] bcast_S_S100000x64) : (⟨S_, .f32⟩ : BufTy).Contents (Elt F) → (⟨S100000x64, .f32⟩ : BufTy).Contents (Elt F)),
    binary main_v56 main_call0_v0 main_v57 ((maximumf) : (⟨S100000x64, .f32⟩ : BufTy).Contents (Elt F) → (⟨S100000x64, .f32⟩ : BufTy).Contents (Elt F) → (⟨S100000x64, .f32⟩ : BufTy).Contents (Elt F)),
    binary main_v57 main_arg4 main_v58 ((fun l r => Host.dotGeneral dot_S100000x64_S64x47_S100000x47_1_0_0_1_n_n none l r) : (⟨S100000x64, .f32⟩ : BufTy).Contents (Elt F) → (⟨S64x47, .f32⟩ : BufTy).Contents (Elt F) → (⟨S100000x47, .f32⟩ : BufTy).Contents (Elt F)) ]

/-- The third stretch: the second aggregation and the second bias. -/
abbrev opsC : List (HloOp τ sig (Elt F)) :=
  [ nullary main_cst_12 (constant S_ .f32 0x3F800000#32),
    unary main_cst_12 main_v59 (broadcastInDim S100000 ![] bcast_S_S100000 : (⟨S_, .f32⟩ : BufTy).Contents (Elt F) → (⟨S100000, .f32⟩ : BufTy).Contents (Elt F)),
    nullary main_c_13 (constantI S_ 32 0#32),
    unary main_c_13 main_v60 (broadcastInDim S1600000 ![] bcast_S_S1600000 : (⟨S_, .i32⟩ : BufTy).Contents (Elt F) → (⟨S1600000, .i32⟩ : BufTy).Contents (Elt F)),
    binary main_v3 main_v60 main_v61 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v62 (broadcastInDim S1600000 ![] bcast_S_S1600000 : (⟨S_, .i32⟩ : BufTy).Contents (Elt F) → (⟨S1600000, .i32⟩ : BufTy).Contents (Elt F)),
    binary main_v3 main_v62 main_v63 (addi : (⟨S1600000, .i32⟩ : BufTy).Contents (Elt F) → (⟨S1600000, .i32⟩ : BufTy).Contents (Elt F) → (⟨S1600000, .i32⟩ : BufTy).Contents (Elt F)),
    ternary main_v61 main_v63 main_v3 main_v64 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v64 main_v65 (broadcastInDim S1600000x1 ![0] bcast_S1600000_S1600000x1_0 : (⟨S1600000, .i32⟩ : BufTy).Contents (Elt F) → (⟨S1600000x1, .i32⟩ : BufTy).Contents (Elt F)),
    nullary main_cst_15 (constant S_ .f32 0x3F800000#32),
    unary main_cst_15 main_v66 (broadcastInDim S1600000 ![] bcast_S_S1600000 : (⟨S_, .f32⟩ : BufTy).Contents (Elt F) → (⟨S1600000, .f32⟩ : BufTy).Contents (Elt F)),
    ternary main_v59 main_v65 main_v66 main_v67 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    unary main_v67 main_v68 (Host.rsqrt : (⟨S100000, .f32⟩ : BufTy).Contents (Elt F) → (⟨S100000, .f32⟩ : BufTy).Contents (Elt F)),
    nullary main_c_16 (constantI S_ 32 0#32),
    unary main_c_16 main_v69 (broadcastInDim S1600000 ![] bcast_S_S1600000 : (⟨S_, .i32⟩ : BufTy).Contents (Elt F) → (⟨S1600000, .i32⟩ : BufTy).Contents (Elt F)),
    binary main_v1 main_v69 main_v70 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v71 (broadcastInDim S1600000 ![] bcast_S_S1600000 : (⟨S_, .i32⟩ : BufTy).Contents (Elt F) → (⟨S1600000, .i32⟩ : BufTy).Contents (Elt F)),
    binary main_v1 main_v71 main_v72 (addi : (⟨S1600000, .i32⟩ : BufTy).Contents (Elt F) → (⟨S1600000, .i32⟩ : BufTy).Contents (Elt F) → (⟨S1600000, .i32⟩ : BufTy).Contents (Elt F)),
    ternary main_v70 main_v72 main_v1 main_v73 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v73 main_v74 (broadcastInDim S1600000x1 ![0] bcast_S1600000_S1600000x1_0 : (⟨S1600000, .i32⟩ : BufTy).Contents (Elt F) → (⟨S1600000x1, .i32⟩ : BufTy).Contents (Elt F)),
    binary main_v68 main_v74 main_v75 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_18 (constantI S_ 32 0#32),
    unary main_c_18 main_v76 (broadcastInDim S1600000 ![] bcast_S_S1600000 : (⟨S_, .i32⟩ : BufTy).Contents (Elt F) → (⟨S1600000, .i32⟩ : BufTy).Contents (Elt F)),
    binary main_v3 main_v76 main_v77 (cmpi .slt : (⟨S1600000, .i32⟩ : BufTy).Contents (Elt F) → (⟨S1600000, .i32⟩ : BufTy).Contents (Elt F) → (⟨S1600000, .i1⟩ : BufTy).Contents (Elt F)),
    nullary main_c_19 (constantI S_ 32 100000#32),
    unary main_c_19 main_v78 (broadcastInDim S1600000 ![] bcast_S_S1600000 : (⟨S_, .i32⟩ : BufTy).Contents (Elt F) → (⟨S1600000, .i32⟩ : BufTy).Contents (Elt F)),
    binary main_v3 main_v78 main_v79 (addi : (⟨S1600000, .i32⟩ : BufTy).Contents (Elt F) → (⟨S1600000, .i32⟩ : BufTy).Contents (Elt F) → (⟨S1600000, .i32⟩ : BufTy).Contents (Elt F)),
    ternary main_v77 main_v79 main_v3 main_v80 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v80 main_v81 (broadcastInDim S1600000x1 ![0] bcast_S1600000_S1600000x1_0 : (⟨S1600000, .i32⟩ : BufTy).Contents (Elt F) → (⟨S1600000x1, .i32⟩ : BufTy).Contents (Elt F)),
    binary main_v68 main_v81 main_v82 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v75 main_v82 main_v83 (mulf : (⟨S1600000, .f32⟩ : BufTy).Contents (Elt F) → (⟨S1600000, .f32⟩ : BufTy).Contents (Elt F) → (⟨S1600000, .f32⟩ : BufTy).Contents (Elt F)),
    nullary main_c_20 (constantI S_ 32 0#32),
    unary main_c_20 main_v84 (broadcastInDim S1600000 ![] bcast_S_S1600000 : (⟨S_, .i32⟩ : BufTy).Contents (Elt F) → (⟨S1600000, .i32⟩ : BufTy).Contents (Elt F)),
    binary main_v1 main_v84 main_v85 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v86 (broadcastInDim S1600000 ![] bcast_S_S1600000 : (⟨S_, .i32⟩ : BufTy).Contents (Elt F) → (⟨S1600000, .i32⟩ : BufTy).Contents (Elt F)),
    binary main_v1 main_v86 main_v87 (addi : (⟨S1600000, .i32⟩ : BufTy).Contents (Elt F) → (⟨S1600000, .i32⟩ : BufTy).Contents (Elt F) → (⟨S1600000, .i32⟩ : BufTy).Contents (Elt F)),
    ternary main_v85 main_v87 main_v1 main_v88 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v88 main_v89 (broadcastInDim S1600000x1 ![0] bcast_S1600000_S1600000x1_0 : (⟨S1600000, .i32⟩ : BufTy).Contents (Elt F) → (⟨S1600000x1, .i32⟩ : BufTy).Contents (Elt F)),
    binary main_v58 main_v89 main_v90 ((fun x i => Host.gather gather_S100000x47_S1600000x1_S1600000x47_1_0_n_n_0_1_147 x i) : (⟨S100000x47, .f32⟩ : BufTy).Contents (Elt F) → (⟨S1600000x1, .i32⟩ : BufTy).Contents (Elt F) → (⟨S1600000x47, .f32⟩ : BufTy).Contents (Elt F)),
    unary main_v83 main_v91 (broadcastInDim S1600000x1 ![0] bcast_S1600000_S1600000x1_0 : (⟨S1600000, .f32⟩ : BufTy).Contents (Elt F) → (⟨S1600000x1, .f32⟩ : BufTy).Contents (Elt F)),
    unary main_v91 main_v92 (broadcastInDim S1600000x47 ![0, 1] bcast_S1600000x1_S1600000x47_0_1 : (⟨S1600000x1, .f32⟩ : BufTy).Contents (Elt F) → (⟨S1600000x47, .f32⟩ : BufTy).Contents (Elt F)),
    binary main_v90 main_v92 main_v93 (mulf : (⟨S1600000x47, .f32⟩ : BufTy).Contents (Elt F) → (⟨S1600000x47, .f32⟩ : BufTy).Contents (Elt F) → (⟨S1600000x47, .f32⟩ : BufTy).Contents (Elt F)),
    nullary main_cst_22 (constant S_ .f32 0x00000000#32),
    unary main_cst_22 main_v94 (broadcastInDim S100000x47 ![] bcast_S_S100000x47 : (⟨S_, .f32⟩ : BufTy).Contents (Elt F) → (⟨S100000x47, .f32⟩ : BufTy).Contents (Elt F)),
    nullary main_c_23 (constantI S_ 32 0#32),
    unary main_c_23 main_v95 (broadcastInDim S1600000 ![] bcast_S_S1600000 : (⟨S_, .i32⟩ : BufTy).Contents (Elt F) → (⟨S1600000, .i32⟩ : BufTy).Contents (Elt F)),
    binary main_v3 main_v95 main_v96 (cmpi .slt : (⟨S1600000, .i32⟩ : BufTy).Contents (Elt F) → (⟨S1600000, .i32⟩ : BufTy).Contents (Elt F) → (⟨S1600000, .i1⟩ : BufTy).Contents (Elt F)),
    nullary main_c_24 (constantI S_ 32 100000#32),
    unary main_c_24 main_v97 (broadcastInDim S1600000 ![] bcast_S_S1600000 : (⟨S_, .i32⟩ : BufTy).Contents (Elt F) → (⟨S1600000, .i32⟩ : BufTy).Contents (Elt F)),
    binary main_v3 main_v97 main_v98 (addi : (⟨S1600000, .i32⟩ : BufTy).Contents (Elt F) → (⟨S1600000, .i32⟩ : BufTy).Contents (Elt F) → (⟨S1600000, .i32⟩ : BufTy).Contents (Elt F)),
    ternary main_v96 main_v98 main_v3 main_v99 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v99 main_v100 (broadcastInDim S1600000x1 ![0] bcast_S1600000_S1600000x1_0 : (⟨S1600000, .i32⟩ : BufTy).Contents (Elt F) → (⟨S1600000x1, .i32⟩ : BufTy).Contents (Elt F)),
    ternary main_v94 main_v100 main_v93 main_v101 ((fun x i u => Host.scatterAdd scatter_S100000x47_S1600000x1_S1600000x47_1_0_0_1 x i u) : (⟨S100000x47, .f32⟩ : BufTy).Contents (Elt F) → (⟨S1600000x1, .i32⟩ : BufTy).Contents (Elt F) → (⟨S1600000x47, .f32⟩ : BufTy).Contents (Elt F) → (⟨S100000x47, .f32⟩ : BufTy).Contents (Elt F)),
    nullary main_cst_25 (constant S_ .f32 0x3F800000#32),
    unary main_cst_25 main_v102 (broadcastInDim S100000 ![] bcast_S_S100000 : (⟨S_, .f32⟩ : BufTy).Contents (Elt F) → (⟨S100000, .f32⟩ : BufTy).Contents (Elt F)),
    binary main_v102 main_v67 main_v103 (Host.divf : (⟨S100000, .f32⟩ : BufTy).Contents (Elt F) → (⟨S100000, .f32⟩ : BufTy).Contents (Elt F) → (⟨S100000, .f32⟩ : BufTy).Contents (Elt F)),
    unary main_v103 main_v104 (broadcastInDim S100000x1 ![0] bcast_S100000_S100000x1_0 : (⟨S100000, .f32⟩ : BufTy).Contents (Elt F) → (⟨S100000x1, .f32⟩ : BufTy).Contents (Elt F)),
    unary main_v104 main_v105 (broadcastInDim S100000x47 ![0, 1] bcast_S100000x1_S100000x47_0_1 : (⟨S100000x1, .f32⟩ : BufTy).Contents (Elt F) → (⟨S100000x47, .f32⟩ : BufTy).Contents (Elt F)),
    binary main_v58 main_v105 main_v106 (mulf : (⟨S100000x47, .f32⟩ : BufTy).Contents (Elt F) → (⟨S100000x47, .f32⟩ : BufTy).Contents (Elt F) → (⟨S100000x47, .f32⟩ : BufTy).Contents (Elt F)),
    binary main_v101 main_v106 main_v107 (addf : (⟨S100000x47, .f32⟩ : BufTy).Contents (Elt F) → (⟨S100000x47, .f32⟩ : BufTy).Contents (Elt F) → (⟨S100000x47, .f32⟩ : BufTy).Contents (Elt F)),
    unary main_arg5 main_v108 (broadcastInDim S1x47 ![1] bcast_S47_S1x47_1 : (⟨S47, .f32⟩ : BufTy).Contents (Elt F) → (⟨S1x47, .f32⟩ : BufTy).Contents (Elt F)),
    unary main_v108 main_v109 (broadcastInDim S100000x47 ![0, 1] bcast_S1x47_S100000x47_0_1 : (⟨S1x47, .f32⟩ : BufTy).Contents (Elt F) → (⟨S100000x47, .f32⟩ : BufTy).Contents (Elt F)),
    binary main_v107 main_v109 main_v110 (addf : (⟨S100000x47, .f32⟩ : BufTy).Contents (Elt F) → (⟨S100000x47, .f32⟩ : BufTy).Contents (Elt F) → (⟨S100000x47, .f32⟩ : BufTy).Contents (Elt F)) ]

/-- The fourth stretch, the row-wise log-softmax (its fifteen operations over the call's buffers), with the row reduction that
    takes the maximum left as a parameter. -/
abbrev opsDg (fmax : (⟨S100000x47, .f32⟩ : BufTy).Contents (Elt F) → (⟨S_, .f32⟩ : BufTy).Contents (Elt F) → (⟨S100000, .f32⟩ : BufTy).Contents (Elt F)) : List (HloOp τ sig (Elt F)) :=
  [ nullary main_call1_cst (constant S_ .f32 0xFF800000#32),
    TRef.binary (TRef.of (T := ⟨S100000x47, .f32⟩) main_v110) (TRef.of (T := ⟨S_, .f32⟩) main_call1_cst) (TRef.of (T := ⟨S100000, .f32⟩) main_call1_v0) fmax,
    nullary main_call1_cst_0 (constant S_ .f32 0xFF800000#32),
    unary main_call1_cst_0 main_call1_v1 ((broadcastInDim S100000 ![] bcast_S_S100000) : (⟨S_, .f32⟩ : BufTy).Contents (Elt F) → (⟨S100000, .f32⟩ : BufTy).Contents (Elt F)),
    binary main_call1_v1 main_call1_v0 main_call1_v2 ((maximumf) : (⟨S100000, .f32⟩ : BufTy).Contents (Elt F) → (⟨S100000, .f32⟩ : BufTy).Contents (Elt F) → (⟨S100000, .f32⟩ : BufTy).Contents (Elt F)),
    unary main_call1_v2 main_call1_v3 ((broadcastInDim S100000x1 ![0] bcast_S100000_S100000x1_0) : (⟨S100000, .f32⟩ : BufTy).Contents (Elt F) → (⟨S100000x1, .f32⟩ : BufTy).Contents (Elt F)),
    unary main_call1_v3 main_call1_v4 ((broadcastInDim S100000x47 ![0, 1] bcast_S100000x1_S100000x47_0_1) : (⟨S100000x1, .f32⟩ : BufTy).Contents (Elt F) → (⟨S100000x47, .f32⟩ : BufTy).Contents (Elt F)),
    binary main_v110 main_call1_v4 main_call1_v5 ((subf) : (⟨S100000x47, .f32⟩ : BufTy).Contents (Elt F) → (⟨S100000x47, .f32⟩ : BufTy).Contents (Elt F) → (⟨S100000x47, .f32⟩ : BufTy).Contents (Elt F)),
    unary main_call1_v5 main_call1_v6 ((Host.exp) : (⟨S100000x47, .f32⟩ : BufTy).Contents (Elt F) → (⟨S100000x47, .f32⟩ : BufTy).Contents (Elt F)),
    nullary main_call1_cst_1 (constant S_ .f32 0x00000000#32),
    binary main_call1_v6 main_call1_cst_1 main_call1_v7 ((fun x v => Host.reduceAdd x v reducesTo_S100000x47_S100000_d1 h_S_) : (⟨S100000x47, .f32⟩ : BufTy).Contents (Elt F) → (⟨S_, .f32⟩ : BufTy).Contents (Elt F) → (⟨S100000, .f32⟩ : BufTy).Contents (Elt F)),
    unary main_call1_v7 main_call1_v8 ((broadcastInDim S100000x1 ![0] bcast_S100000_S100000x1_0) : (⟨S100000, .f32⟩ : BufTy).Contents (Elt F) → (⟨S100000x1, .f32⟩ : BufTy).Contents (Elt F)),
    unary main_call1_v8 main_call1_v9 ((Host.log) : (⟨S100000x1, .f32⟩ : BufTy).Contents (Elt F) → (⟨S100000x1, .f32⟩ : BufTy).Contents (Elt F)),
    unary main_call1_v9 main_call1_v10 ((broadcastInDim S100000x47 ![0, 1] bcast_S100000x1_S100000x47_0_1) : (⟨S100000x1, .f32⟩ : BufTy).Contents (Elt F) → (⟨S100000x47, .f32⟩ : BufTy).Contents (Elt F)),
    binary main_call1_v5 main_call1_v10 main_v111 ((subf) : (⟨S100000x47, .f32⟩ : BufTy).Contents (Elt F) → (⟨S100000x47, .f32⟩ : BufTy).Contents (Elt F) → (⟨S100000x47, .f32⟩ : BufTy).Contents (Elt F)) ]

/-- The fourth stretch: the row-wise log-softmax. -/
abbrev opsD : List (HloOp τ sig (Elt F)) := opsDg (fun x v => Host.reduce FloatOps.maximumf x v reducesTo_S100000x47_S100000_d1 h_S_)

set_option maxRecDepth 65536 in
/-- The reference's line of operations is the four stretches one after the other. -/
theorem ops_split : (ops : List (HloOp τ sig (Elt F))) = opsA ++ (opsB ++ (opsC ++ opsD)) := rfl

end Ops

/-- Every weakly fair execution of the reference terminates, nothing faulting, with every buffer at what the line of
    operations leaves there from the launch contents. -/
theorem run_raw {F : FTy → Type} [FloatOps F] (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-- The source row of the edge list as a vector of words. -/
def srcRow (e : IVec S2x1600000 32) : IVec S1600000 32 :=
  shapeCast S1600000 (extractStridedSlice S1x1600000 ![0, 0] e slices_S2x1600000_S1x1600000_0_0) shapeCasts_S1x1600000_S1600000
/-- The destination row of the edge list as a vector of words. -/
def dstRow (e : IVec S2x1600000 32) : IVec S1600000 32 :=
  shapeCast S1600000 (extractStridedSlice S1x1600000 ![1, 0] e slices_S2x1600000_S1x1600000_1_0) shapeCasts_S1x1600000_S1600000
/-- A vector of index words with the negative ones shifted up by the node count, laid out as a column. -/
def normCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)
/-- The degree array of a destination column. -/
def degCol (dstI : IVec S1600000x1 32) : FVec Ideal S100000 .f32 :=
  degOf scatter_S100000_S1600000x1_S1600000_n_0_0_1 bcast_S_S100000 bcast_S_S1600000 dstI

variable (Vp : Valuation τ sig (Elt Ideal))

/-! ## The first stretch -/

theorem sA_v1 : StableHlo.after (opsA (F := Ideal)) Vp (Proc.devRef .tc main_v1) = srcRow (Vp (Proc.devRef .tc main_arg1)) := by
  after_results_simp
  rfl
theorem sA_v3 : StableHlo.after (opsA (F := Ideal)) Vp (Proc.devRef .tc main_v3) = dstRow (Vp (Proc.devRef .tc main_arg1)) := by
  after_results_simp
  rfl
theorem sA_v4 : StableHlo.after (opsA (F := Ideal)) Vp (Proc.devRef .tc main_v4)
    = Host.dotGeneral (F := Ideal) (φ₁ := .f32) (φ₂ := .f32) dot_S100000x128_S128x64_S100000x64_1_0_0_1_n_n none (Vp (Proc.devRef .tc main_arg0)) (Vp (Proc.devRef .tc main_arg2)) := by
  after_results_simp
theorem sA_v13 : StableHlo.after (opsA (F := Ideal)) Vp (Proc.devRef .tc main_v13) = degCol (normCol (dstRow (Vp (Proc.devRef .tc main_arg1)))) := by
  after_results_simp
  rfl
theorem sA_v14 : StableHlo.after (opsA (F := Ideal)) Vp (Proc.devRef .tc main_v14) = Host.rsqrt (degCol (normCol (dstRow (Vp (Proc.devRef .tc main_arg1))))) := by
  after_results_simp
  rfl
theorem sA_keep_arg3 : StableHlo.after (opsA (F := Ideal)) Vp (Proc.devRef .tc main_arg3) = Vp (Proc.devRef .tc main_arg3) := by
  after_results_simp
theorem sA_keep_arg4 : StableHlo.after (opsA (F := Ideal)) Vp (Proc.devRef .tc main_arg4) = Vp (Proc.devRef .tc main_arg4) := by
  after_results_simp
theorem sA_keep_arg5 : StableHlo.after (opsA (F := Ideal)) Vp (Proc.devRef .tc main_arg5) = Vp (Proc.devRef .tc main_arg5) := by
  after_results_simp

/-! ## The second stretch -/

/-- The aggregation of a 64-column array, edges weighted. -/
def agg64 (srcI dstI : IVec S1600000x1 32) (deg dinv : FVec Ideal S100000 .f32) (xw : FVec Ideal S100000x64 .f32) :
    FVec Ideal S100000x64 .f32 :=
  aggEdges scatter_S100000x64_S1600000x1_S1600000x64_1_0_0_1 gather_S100000x64_S1600000x1_S1600000x64_1_0_n_n_0_1_164
    gather_S100000_S1600000x1_S1600000_n_0_n_n_0_1_1
    bcast_S100000_S100000x1_0 bcast_S100000x1_S100000x64_0_1 bcast_S_S100000x64
    bcast_S1600000_S1600000x1_0 bcast_S1600000x1_S1600000x64_0_1 bcast_S_S100000 srcI dstI deg dinv xw
/-- The aggregation of a 47-column array, edges weighted. -/
def agg47 (srcI dstI : IVec S1600000x1 32) (deg dinv : FVec Ideal S100000 .f32) (xw : FVec Ideal S100000x47 .f32) :
    FVec Ideal S100000x47 .f32 :=
  aggEdges scatter_S100000x47_S1600000x1_S1600000x47_1_0_0_1 gather_S100000x47_S1600000x1_S1600000x47_1_0_n_n_0_1_147
    gather_S100000_S1600000x1_S1600000_n_0_n_n_0_1_1
    bcast_S100000_S100000x1_0 bcast_S100000x1_S100000x47_0_1 bcast_S_S100000x47
    bcast_S1600000_S1600000x1_0 bcast_S1600000x1_S1600000x47_0_1 bcast_S_S100000 srcI dstI deg dinv xw

/-- The rectified, biased first aggregate, in the host's spelling. -/
def hidden (a : FVec Ideal S100000x64 .f32) (b : FVec Ideal S64 .f32) : FVec Ideal S100000x64 .f32 :=
  maximumf (addf a (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

theorem sB_v58 : StableHlo.after (opsB (F := Ideal)) Vp (Proc.devRef .tc main_v58)
    = Host.dotGeneral (F := Ideal) (φ₁ := .f32) (φ₂ := .f32) dot_S100000x64_S64x47_S100000x47_1_0_0_1_n_n none
        (hidden (agg64 (normCol (Vp (Proc.devRef .tc main_v1))) (normCol (Vp (Proc.devRef .tc main_v3))) (Vp (Proc.devRef .tc main_v13)) (Vp (Proc.devRef .tc main_v14)) (Vp (Proc.devRef .tc main_v4)))
          (Vp (Proc.devRef .tc main_arg3)))
        (Vp (Proc.devRef .tc main_arg4)) := by
  after_results_simp
  rfl
theorem sB_keep_v1 : StableHlo.after (opsB (F := Ideal)) Vp (Proc.devRef .tc main_v1) = Vp (Proc.devRef .tc main_v1) := by
  after_results_simp
theorem sB_keep_v3 : StableHlo.after (opsB (F := Ideal)) Vp (Proc.devRef .tc main_v3) = Vp (Proc.devRef .tc main_v3) := by
  after_results_simp
theorem sB_keep_arg5 : StableHlo.after (opsB (F := Ideal)) Vp (Proc.devRef .tc main_arg5) = Vp (Proc.devRef .tc main_arg5) := by
  after_results_simp

/-! ## The third stretch -/

theorem sC_v110 : StableHlo.after (opsC (F := Ideal)) Vp (Proc.devRef .tc main_v110)
    = addf (agg47 (normCol (Vp (Proc.devRef .tc main_v1))) (normCol (Vp (Proc.devRef .tc main_v3))) (degCol (normCol (Vp (Proc.devRef .tc main_v3))))
          (Host.rsqrt (degCol (normCol (Vp (Proc.devRef .tc main_v3))))) (Vp (Proc.devRef .tc main_v58)))
        (broadcastInDim S100000x47 ![0, 1] bcast_S1x47_S100000x47_0_1 (broadcastInDim S1x47 ![1] bcast_S47_S1x47_1 (Vp (Proc.devRef .tc main_arg5)))) := by
  after_results_simp
  rfl

/-! ## The fourth stretch -/

/-- The row-wise log-softmax in the host's spelling, the row reduction that takes the maximum left as a parameter. -/
def hostSoftmaxG (fmax : FVec Ideal S100000x47 .f32 → FVec Ideal S_ .f32 → FVec Ideal S100000 .f32) (X : FVec Ideal S100000x47 .f32) :
    FVec Ideal S100000x47 .f32 :=
  subf (subf X (broadcastInDim S100000x47 ![0, 1] bcast_S100000x1_S100000x47_0_1 (broadcastInDim S100000x1 ![0] bcast_S100000_S100000x1_0 (maximumf (broadcastInDim S100000 ![] bcast_S_S100000 (constant (F := Ideal) S_ .f32 0xFF800000#32)) (fmax X (constant (F := Ideal) S_ .f32 0xFF800000#32))))))
    (broadcastInDim S100000x47 ![0, 1] bcast_S100000x1_S100000x47_0_1 (Host.log (broadcastInDim S100000x1 ![0] bcast_S100000_S100000x1_0
      (Host.reduceAdd (Host.exp (subf X (broadcastInDim S100000x47 ![0, 1] bcast_S100000x1_S100000x47_0_1 (broadcastInDim S100000x1 ![0] bcast_S100000_S100000x1_0 (maximumf (broadcastInDim S100000 ![] bcast_S_S100000 (constant (F := Ideal) S_ .f32 0xFF800000#32)) (fmax X (constant (F := Ideal) S_ .f32 0xFF800000#32))))))) (constant (F := Ideal) S_ .f32 0x00000000#32) reducesTo_S100000x47_S100000_d1 h_S_))))

/-- The row-wise log-softmax in the host's spelling. -/
def hostSoftmax (X : FVec Ideal S100000x47 .f32) : FVec Ideal S100000x47 .f32 :=
  hostSoftmaxG (fun x v => Host.reduce FloatOps.maximumf x v reducesTo_S100000x47_S100000_d1 h_S_) X

theorem sDg_v111 (fmax : FVec Ideal S100000x47 .f32 → FVec Ideal S_ .f32 → FVec Ideal S100000 .f32) :
    StableHlo.after (opsDg (F := Ideal) fmax) Vp (Proc.devRef .tc main_v111) = hostSoftmaxG fmax (Vp (Proc.devRef .tc main_v110)) := by
  after_results_simp
  rfl

theorem sD_v111 : StableHlo.after (opsD (F := Ideal)) Vp (Proc.devRef .tc main_v111) = hostSoftmax (Vp (Proc.devRef .tc main_v110)) :=
  sDg_v111 Vp _

/-! ## The whole line -/

/-- The reference's result as a function of its arguments. -/
def refSpec (x : FVec Ideal S100000x128 .f32) (e : IVec S2x1600000 32) (w1 : FVec Ideal S128x64 .f32)
    (b1 : FVec Ideal S64 .f32) (w2 : FVec Ideal S64x47 .f32) (b2 : FVec Ideal S47 .f32) : FVec Ideal S100000x47 .f32 :=
  hostSoftmax (addf
    (agg47 (normCol (srcRow e)) (normCol (dstRow e)) (degCol (normCol (dstRow e))) (Host.rsqrt (degCol (normCol (dstRow e))))
      (Host.dotGeneral (F := Ideal) (φ₁ := .f32) (φ₂ := .f32) dot_S100000x64_S64x47_S100000x47_1_0_0_1_n_n none
        (hidden (agg64 (normCol (srcRow e)) (normCol (dstRow e)) (degCol (normCol (dstRow e))) (Host.rsqrt (degCol (normCol (dstRow e))))
            (Host.dotGeneral (F := Ideal) (φ₁ := .f32) (φ₂ := .f32) dot_S100000x128_S128x64_S100000x64_1_0_0_1_n_n none x w1))
          b1)
        w2))
    (broadcastInDim S100000x47 ![0, 1] bcast_S1x47_S100000x47_0_1 (broadcastInDim S1x47 ![1] bcast_S47_S1x47_1 b2)))

/-- THE REFERENCE'S RESULT: what the line of operations leaves at the result buffer is `refSpec` of the contents of the six
    argument buffers it starts from. -/
theorem ref_value : StableHlo.after (ops (F := Ideal)) Vp (Proc.devRef .tc main_v111) = refSpec (Vp (Proc.devRef .tc main_arg0)) (Vp (Proc.devRef .tc main_arg1)) (Vp (Proc.devRef .tc main_arg2)) (Vp (Proc.devRef .tc main_arg3)) (Vp (Proc.devRef .tc main_arg4)) (Vp (Proc.devRef .tc main_arg5)) := by
  rw [ops_split, StableHlo.after_append, StableHlo.after_append, StableHlo.after_append]
  rw [sD_v111 (StableHlo.after (opsC (F := Ideal)) (StableHlo.after (opsB (F := Ideal)) (StableHlo.after (opsA (F := Ideal)) Vp))), sC_v110 (StableHlo.after (opsB (F := Ideal)) (StableHlo.after (opsA (F := Ideal)) Vp)), sB_keep_v1 (StableHlo.after (opsA (F := Ideal)) Vp), sB_keep_v3 (StableHlo.after (opsA (F := Ideal)) Vp), sB_keep_arg5 (StableHlo.after (opsA (F := Ideal)) Vp), sB_v58 (StableHlo.after (opsA (F := Ideal)) Vp),
    sA_v1 Vp, sA_v3 Vp, sA_v4 Vp, sA_v13 Vp, sA_v14 Vp, sA_keep_arg3 Vp, sA_keep_arg4 Vp, sA_keep_arg5 Vp]
  rfl

theorem ref_keep_arg0 : StableHlo.after (ops (F := Ideal)) Vp (Proc.devRef .tc main_arg0) = Vp (Proc.devRef .tc main_arg0) := by
  after_results_simp
theorem ref_keep_arg1 : StableHlo.after (ops (F := Ideal)) Vp (Proc.devRef .tc main_arg1) = Vp (Proc.devRef .tc main_arg1) := by
  after_results_simp
theorem ref_keep_arg2 : StableHlo.after (ops (F := Ideal)) Vp (Proc.devRef .tc main_arg2) = Vp (Proc.devRef .tc main_arg2) := by
  after_results_simp
theorem ref_keep_arg3 : StableHlo.after (ops (F := Ideal)) Vp (Proc.devRef .tc main_arg3) = Vp (Proc.devRef .tc main_arg3) := by
  after_results_simp
theorem ref_keep_arg4 : StableHlo.after (ops (F := Ideal)) Vp (Proc.devRef .tc main_arg4) = Vp (Proc.devRef .tc main_arg4) := by
  after_results_simp
theorem ref_keep_arg5 : StableHlo.after (ops (F := Ideal)) Vp (Proc.devRef .tc main_arg5) = Vp (Proc.devRef .tc main_arg5) := by
  after_results_simp

end Cert.ReferenceIdeal.RefValue

end
-- ==== Proof.Bridge.lean ====
/-
  The two programs compute one function.

  The kernel's result (`kernelSpec`) and the reference's (`refSpec`) are the same composition, layer by layer:
  the vector unit's matrix product into a zero accumulator and the host's dot product are the matrix product; a bias laid
  out as one row and added to every row, rectified, is the same array whichever way the row is broadcast; the two
  arrangements of the neighbour aggregation agree (`Cert.GcnAgg.aggRows_eq_aggEdges`: the degree is a real number at least
  one, so its inverse square root is a non-negative real, which distributes over the sum; an edge landing on a node has that
  node as its clamped destination; `deg^(-1/2) · deg^(-1/2) = 1 / deg`); and the two spellings of the row-wise log-softmax
  agree.  Nothing here needs the inputs to be finite.
-/
import proofs.«107560_j37632503447782_2_alg».proof.Proof.KValue
import proofs.«107560_j37632503447782_2_alg».proof.Proof.RefValue

set_option maxRecDepth 16384

noncomputable section

namespace Cert.Bridge

open Idealize.ShloMosaic Idealize.ShloMosaic.ValueIdx
open Cert.GcnAgg Cert.Dense Cert.LogSoftmax

/-- The two arrangements of the aggregation of a 64-column array, at the programs' dimension numbers. -/
theorem agg64_eq (srcI dstI : IVec Cert.ReferenceIdeal.S1600000x1 32) (xw : FVec Ideal Cert.ReferenceIdeal.S100000x64 .f32) :
    Cert.KernelIdeal.HostValue.agg64 srcI dstI (Host.rsqrt (Cert.KernelIdeal.HostValue.degCol dstI)) (mulf (Host.rsqrt (Cert.KernelIdeal.HostValue.degCol dstI)) (Host.rsqrt (Cert.KernelIdeal.HostValue.degCol dstI))) xw
      = Cert.ReferenceIdeal.RefValue.agg64 srcI dstI (Cert.ReferenceIdeal.RefValue.degCol dstI) (Host.rsqrt (Cert.ReferenceIdeal.RefValue.degCol dstI)) xw :=
  aggRows_eq_aggEdges (N := 100000) (E := 1600000) (F := 64) (by norm_num)
    Cert.KernelIdeal.scatter_S100000x64_S1600000x1_S1600000x64_1_0_0_1 rfl rfl rfl rfl
    Cert.KernelIdeal.gather_S100000x64_S1600000x1_S1600000x64_1_0_n_n_0_1_164 rfl rfl rfl rfl rfl rfl rfl
    Cert.ReferenceIdeal.gather_S100000_S1600000x1_S1600000_n_0_n_n_0_1_1 rfl rfl rfl rfl rfl rfl rfl
    Cert.KernelIdeal.scatter_S100000_S1600000x1_S1600000_n_0_0_1
    Cert.ReferenceIdeal.Gen.bcast_S100000_S100000x1_0 Cert.ReferenceIdeal.Gen.bcast_S100000x1_S100000x64_0_1 Cert.ReferenceIdeal.Gen.bcast_S_S100000x64
    Cert.ReferenceIdeal.Gen.bcast_S1600000_S1600000x1_0 Cert.ReferenceIdeal.Gen.bcast_S1600000x1_S1600000x64_0_1 Cert.ReferenceIdeal.Gen.bcast_S_S100000 Cert.ReferenceIdeal.Gen.bcast_S_S1600000
    srcI dstI xw

/-- The two arrangements of the aggregation of a 47-column array, at the programs' dimension numbers. -/
theorem agg47_eq (srcI dstI : IVec Cert.ReferenceIdeal.S1600000x1 32) (xw : FVec Ideal Cert.ReferenceIdeal.S100000x47 .f32) :
    Cert.KernelIdeal.HostValue.agg47 srcI dstI (Host.rsqrt (Cert.KernelIdeal.HostValue.degCol dstI)) (mulf (Host.rsqrt (Cert.KernelIdeal.HostValue.degCol dstI)) (Host.rsqrt (Cert.KernelIdeal.HostValue.degCol dstI))) xw
      = Cert.ReferenceIdeal.RefValue.agg47 srcI dstI (Cert.ReferenceIdeal.RefValue.degCol dstI) (Host.rsqrt (Cert.ReferenceIdeal.RefValue.degCol dstI)) xw :=
  aggRows_eq_aggEdges (N := 100000) (E := 1600000) (F := 47) (by norm_num)
    Cert.KernelIdeal.scatter_S100000x47_S1600000x1_S1600000x47_1_0_0_1 rfl rfl rfl rfl
    Cert.KernelIdeal.gather_S100000x47_S1600000x1_S1600000x47_1_0_n_n_0_1_147 rfl rfl rfl rfl rfl rfl rfl
    Cert.ReferenceIdeal.gather_S100000_S1600000x1_S1600000_n_0_n_n_0_1_1 rfl rfl rfl rfl rfl rfl rfl
    Cert.KernelIdeal.scatter_S100000_S1600000x1_S1600000_n_0_0_1
    Cert.ReferenceIdeal.Gen.bcast_S100000_S100000x1_0 Cert.ReferenceIdeal.Gen.bcast_S100000x1_S100000x47_0_1 Cert.ReferenceIdeal.Gen.bcast_S_S100000x47
    Cert.ReferenceIdeal.Gen.bcast_S1600000_S1600000x1_0 Cert.ReferenceIdeal.Gen.bcast_S1600000x1_S1600000x47_0_1 Cert.ReferenceIdeal.Gen.bcast_S_S100000 Cert.ReferenceIdeal.Gen.bcast_S_S1600000
    srcI dstI xw

/-- The host's spelling of the row-wise log-softmax is `lsm`. -/
theorem hostSoftmax_eq (X : FVec Ideal Cert.ReferenceIdeal.S100000x47 .f32) : Cert.ReferenceIdeal.RefValue.hostSoftmax X = lsm X :=
  hostLsm X Cert.ReferenceIdeal.Gen.reducesTo_S100000x47_S100000_d1 (by decide) Cert.ReferenceIdeal.Gen.h_S_ Cert.ReferenceIdeal.Gen.bcast_S_S100000
    Cert.ReferenceIdeal.Gen.bcast_S100000_S100000x1_0 Cert.ReferenceIdeal.Gen.bcast_S100000x1_S100000x47_0_1

/-- The host's spelling of the rectified biased array is `reluBias` with the bias as a row. -/
theorem hidden_eq (a : FVec Ideal Cert.ReferenceIdeal.S100000x64 .f32) (b : FVec Ideal Cert.ReferenceIdeal.S64 .f32) : Cert.ReferenceIdeal.RefValue.hidden a b = reluBias a (row b) :=
  hostReluBias a b Cert.ReferenceIdeal.Gen.bcast_S64_S1x64_1 Cert.ReferenceIdeal.Gen.bcast_S1x64_S100000x64_0_1 Cert.ReferenceIdeal.Gen.bcast_S_S100000x64

/-- THE BRIDGE: the kernel's function of the arguments is the reference's. -/
theorem spec_eq (x : FVec Ideal Cert.ReferenceIdeal.S100000x128 .f32) (e : IVec Cert.ReferenceIdeal.S2x1600000 32) (w1 : FVec Ideal Cert.ReferenceIdeal.S128x64 .f32)
    (b1 : FVec Ideal Cert.ReferenceIdeal.S64 .f32) (w2 : FVec Ideal Cert.ReferenceIdeal.S64x47 .f32) (b2 : FVec Ideal Cert.ReferenceIdeal.S47 .f32) :
    Cert.KernelIdeal.KernelValue.kernelSpec x e w1 b1 w2 b2 = Cert.ReferenceIdeal.RefValue.refSpec x e w1 b1 w2 b2 := by
  unfold Cert.ReferenceIdeal.RefValue.refSpec
  rw [hostSoftmax_eq, hostAddRow _ b2 Cert.ReferenceIdeal.Gen.bcast_S47_S1x47_1 Cert.ReferenceIdeal.Gen.bcast_S1x47_S100000x47_0_1,
    hostDot_eq_mm Cert.ReferenceIdeal.dot_S100000x64_S64x47_S100000x47_1_0_0_1_n_n rfl rfl rfl rfl rfl rfl,
    hostDot_eq_mm Cert.ReferenceIdeal.dot_S100000x128_S128x64_S100000x64_1_0_0_1_n_n rfl rfl rfl rfl rfl rfl,
    hidden_eq, ← agg64_eq, ← agg47_eq]
  unfold Cert.KernelIdeal.KernelValue.kernelSpec
  rw [shapeCast_row b1, shapeCast_row b2]
  rfl

end Cert.Bridge

end
-- ==== Proof.lean ====
/-
  The certificate of a two-layer graph convolution: a kernel of three row-blocked regions (a matrix product; bias,
  rectifier and a second matrix product; bias and a row-wise log-softmax) with the neighbour aggregation done on the
  host between them, against a reference that is host operations only.

  Both programs run: the kernel's frame is the generated one for its three regions; the reference has no kernel and
  its run is the run of its line of operations.  The idealization rewrote nothing, so `preserves` is `True`.  At the
  extended reals the two results are one function of the six arguments (`Cert.Bridge.spec_eq`): the kernel's side is
  read off its run region by region and stretch by stretch (`Cert.KernelIdeal.KernelValue.kernel_value`), the reference's
  off its line of operations (`Cert.ReferenceIdeal.RefValue.ref_value`); the two arrangements of the aggregation —
  rows scaled by `deg^(-1/2)` before and after the sum, against every edge weighted by `deg^(-1/2)(src) · deg^(-1/2)(dst)`
  and the self term by `1 / deg` — agree for every extended-real input because the degree is a real number at least one.
  The precondition (finite inputs) is not used.
-/
import proofs.«107560_j37632503447782_2_alg».proof.Defs
import proofs.«107560_j37632503447782_2_alg».proof.Proof.Gen.Kernel
import proofs.«107560_j37632503447782_2_alg».proof.Proof.Gen.Kernel.Skeleton
import proofs.«107560_j37632503447782_2_alg».proof.Proof.Gen.Kernel.Launch
import proofs.«107560_j37632503447782_2_alg».proof.Proof.Gen.Kernel.Points
import proofs.«107560_j37632503447782_2_alg».proof.Proof.Gen.Kernel.Frame
import proofs.«107560_j37632503447782_2_alg».proof.Proof.Gen.KernelIdeal
import proofs.«107560_j37632503447782_2_alg».proof.Proof.Gen.KernelIdeal.Skeleton
import proofs.«107560_j37632503447782_2_alg».proof.Proof.Gen.KernelIdeal.Launch
import proofs.«107560_j37632503447782_2_alg».proof.Proof.Gen.KernelIdeal.Points
import proofs.«107560_j37632503447782_2_alg».proof.Proof.Gen.KernelIdeal.Frame
import proofs.«107560_j37632503447782_2_alg».proof.Proof.Gen.ReferenceIdeal
import proofs.«107560_j37632503447782_2_alg».proof.Proof.Gen.Pre_finite_inputs
import proofs.«107560_j37632503447782_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The reference runs and leaves its arguments as launched: no operation of its line writes an argument buffer. -/
theorem frame_ri : Cert.frame_ReferenceIdeal := fun m ρ _ =>
  (θ_run Cert.ReferenceIdeal.defs _ _).mono (fun r h c =>
      ⟨(h c Cert.ReferenceIdeal.main_arg0).trans (Cert.ReferenceIdeal.RefValue.ref_keep_arg0 _),
       (h c Cert.ReferenceIdeal.main_arg1).trans (Cert.ReferenceIdeal.RefValue.ref_keep_arg1 _),
       (h c Cert.ReferenceIdeal.main_arg2).trans (Cert.ReferenceIdeal.RefValue.ref_keep_arg2 _),
       (h c Cert.ReferenceIdeal.main_arg3).trans (Cert.ReferenceIdeal.RefValue.ref_keep_arg3 _),
       (h c Cert.ReferenceIdeal.main_arg4).trans (Cert.ReferenceIdeal.RefValue.ref_keep_arg4 _),
       (h c Cert.ReferenceIdeal.main_arg5).trans (Cert.ReferenceIdeal.RefValue.ref_keep_arg5 _)⟩)
    (Cert.ReferenceIdeal.RefValue.run_raw (F := Ideal) m ρ)

/-- At the extended reals, from memories agreeing on the arguments, both programs end with the same result array:
    each side's result is its own function of the arguments, and the two functions are one. -/
theorem algebraic : Cert.algebraic_KernelIdeal_ReferenceIdeal := by
  intro m ρ m' ρ' _ hagree
  refine ⟨fun c => Cert.KernelIdeal.KernelValue.kernelSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.KernelValue.kernel_value m ρ c), (h c).2⟩)
      (Cert.KernelIdeal.RunValue.run_main (F := Ideal) m ρ)
  · refine (θ_run Cert.ReferenceIdeal.defs _ _).mono (fun r h c =>
        ⟨?_, (h c Cert.ReferenceIdeal.main_arg0).trans (Cert.ReferenceIdeal.RefValue.ref_keep_arg0 _),
         (h c Cert.ReferenceIdeal.main_arg1).trans (Cert.ReferenceIdeal.RefValue.ref_keep_arg1 _),
         (h c Cert.ReferenceIdeal.main_arg2).trans (Cert.ReferenceIdeal.RefValue.ref_keep_arg2 _),
         (h c Cert.ReferenceIdeal.main_arg3).trans (Cert.ReferenceIdeal.RefValue.ref_keep_arg3 _),
         (h c Cert.ReferenceIdeal.main_arg4).trans (Cert.ReferenceIdeal.RefValue.ref_keep_arg4 _),
         (h c Cert.ReferenceIdeal.main_arg5).trans (Cert.ReferenceIdeal.RefValue.ref_keep_arg5 _)⟩)
      (Cert.ReferenceIdeal.RefValue.run_raw (F := Ideal) m' ρ')
    refine ((h c Cert.ReferenceIdeal.main_v111).trans (Cert.ReferenceIdeal.RefValue.ref_value _)).trans ?_
    show Cert.ReferenceIdeal.RefValue.refSpec (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [(hagree c).1, (hagree c).2.1, (hagree c).2.2.1, (hagree c).2.2.2.1, (hagree c).2.2.2.2.1, (hagree c).2.2.2.2.2]
    exact (Cert.Bridge.spec_eq _ _ _ _ _ _).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ri, trivial, algebraic⟩

end Cert.Proof

end
